-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67_2)) (v1 : (c : Dev Cert.KernelIdeal.nD) → Buf (Elt Ideal) ((c.tc : Thread Cert.KernelIdeal.nD Cert.KernelIdeal.τ).loc Cert.KernelIdeal.main_v67_0)) (v2 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_2) = v0 c
          ∧ r.2.mem ((c.tc : Thread Cert.KernelIdeal.nD Cert.KernelIdeal.τ).loc Cert.KernelIdeal.main_v67_0) = v1 c
          ∧ r.2.mem ((c.tc : Thread Cert.KernelIdeal.nD Cert.KernelIdeal.τ).loc Cert.KernelIdeal.main_v67_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v295) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S320000 : Shape := ⟨1, ![320000]⟩
abbrev S4x256x256 : Shape := ⟨3, ![4, 256, 256]⟩
abbrev S4x3x256x256 : Shape := ⟨4, ![4, 3, 256, 256]⟩
abbrev S4x256 : Shape := ⟨2, ![4, 256]⟩
abbrev S3x256 : Shape := ⟨2, ![3, 256]⟩
abbrev S256x1 : Shape := ⟨2, ![256, 1]⟩
abbrev S1 : Shape := ⟨1, ![1]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S4x256x256 : S_.BroadcastsInDim S4x256x256 (![] : Fin 0 → Fin S4x256x256.rank)
  reducesTo_S4x256x256_S_d0_1_2 : S4x256x256.ReducesTo [0, 1, 2] S_
  bcast_S_S4x3x256x256 : S_.BroadcastsInDim S4x3x256x256 (![] : Fin 0 → Fin S4x3x256x256.rank)
  reducesTo_S4x3x256x256_S_d0_1_2_3 : S4x3x256x256.ReducesTo [0, 1, 2, 3] S_
  bcast_S_S4x256 : S_.BroadcastsInDim S4x256 (![] : Fin 0 → Fin S4x256.rank)
  reducesTo_S4x256_S_d0_1 : S4x256.ReducesTo [0, 1] S_
  bcast_S_S3x256 : S_.BroadcastsInDim S3x256 (![] : Fin 0 → Fin S3x256.rank)
  reducesTo_S3x256_S_d0_1 : S3x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S4x256 .f32) (main_arg9 : FVec F S3x256 .f32) (main_arg10 : FVec F S256x1 .f32) (main_arg11 : FVec F S1 .f32) (main_v33 : IVec S_ 1) : IVec S_ 1 :=
  let main_v34 : FVec F S4x256 .f32 := Host.absf main_arg8
  let main_cst_12 : FVec F S_ .f32 := constant S_ .f32 0x7F800000#32
  let main_v35 : FVec F S4x256 .f32 := broadcastInDim S4x256 ![] bcast_S_S4x256 main_cst_12
  let main_v36 : IVec S4x256 1 := cmpf .olt main_v34 main_v35
  let main_c_13 : IVec S_ 1 := constantI S_ 1 1#1
  let main_v37 : IVec S_ 1 := (fun x v => Host.reduce IntOp.andi x v reducesTo_S4x256_S_d0_1 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S4x256x256 .f32) (main_arg6 : FVec F S4x3x256x256 .f32) (main_arg7 : FVec F S4x256 .f32) (main_arg8 : FVec F S4x256 .f32) (main_arg9 : FVec F S3x256 .f32) (main_arg10 : FVec F S256x1 .f32) (main_arg11 : FVec F S1 .f32) (main_v13 : IVec S_ 1) (main_v16 : IVec S20000x256 1) : IVec S_ 1 :=
  let main_c_5 : IVec S_ 1 := constantI S_ 1 1#1
  let main_v17 : IVec S_ 1 := (fun x v => Host.reduce IntOp.andi x v reducesTo_S20000x256_S_d0_1 h_S_) main_v16 main_c_5
  let main_v18 : IVec S_ 1 := andi main_v13 main_v17
  let main_v19 : FVec F S4x256x256 .f32 := Host.absf main_arg5
  let main_cst_6 : FVec F S_ .f32 := constant S_ .f32 0x7F800000#32
  let main_v20 : FVec F S4x256x256 .f32 := broadcastInDim S4x256x256 ![] bcast_S_S4x256x256 main_cst_6
  let main_v21 : IVec S4x256x256 1 := cmpf .olt main_v19 main_v20
  let main_c_7 : IVec S_ 1 := constantI S_ 1 1#1
  let main_v22 : IVec S_ 1 := (fun x v => Host.reduce IntOp.andi x v reducesTo_S4x256x256_S_d0_1_2 h_S_) main_v21 main_c_7
  let main_v23 : IVec S_ 1 := andi main_v18 main_v22
  let main_v24 : FVec F S4x3x256x256 .f32 := Host.absf main_arg6
  let main_cst_8 : FVec F S_ .f32 := constant S_ .f32 0x7F800000#32
  let main_v25 : FVec F S4x3x256x256 .f32 := broadcastInDim S4x3x256x256 ![] bcast_S_S4x3x256x256 main_cst_8
  let main_v26 : IVec S4x3x256x256 1 := cmpf .olt main_v24 main_v25
  let main_c_9 : IVec S_ 1 := constantI S_ 1 1#1
  let main_v27 : IVec S_ 1 := (fun x v => Host.reduce IntOp.andi x v reducesTo_S4x3x256x256_S_d0_1_2_3 h_S_) main_v26 main_c_9
  let main_v28 : IVec S_ 1 := andi main_v23 main_v27
  let main_v29 : FVec F S4x256 .f32 := Host.absf main_arg7
  let main_cst_10 : FVec F S_ .f32 := constant S_ .f32 0x7F800000#32
  let main_v30 : FVec F S4x256 .f32 := broadcastInDim S4x256 ![] bcast_S_S4x256 main_cst_10
  let main_v31 : IVec S4x256 1 := cmpf .olt main_v29 main_v30
  let main_c_11 : IVec S_ 1 := constantI S_ 1 1#1
  let main_v32 : IVec S_ 1 := (fun x v => Host.reduce IntOp.andi x v reducesTo_S4x256_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S20000x256 .f32) (main_arg1 : IVec S2x320000 32) (main_arg2 : FVec F S320000 .f32) (main_arg3 : FVec F S20000x256 .f32) (main_arg4 : FVec F S20000x256 .f32) (main_arg5 : FVec F S4x256x256 .f32) (main_arg6 : FVec F S4x3x256x256 .f32) (main_arg7 : FVec F S4x256 .f32) (main_arg8 : FVec F S4x256 .f32) (main_arg9 : FVec F S3x256 .f32) (main_arg10 : FVec F S256x1 .f32) (main_arg11 : FVec F S1 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S20000x256 .f32 := Host.absf main_arg3
  let main_cst_2 : FVec F S_ .f32 := constant S_ .f32 0x7F800000#32
  let main_v10 : FVec F S20000x256 .f32 := broadcastInDim S20000x256 ![] bcast_S_S20000x256 main_cst_2
  let main_v11 : IVec S20000x256 1 := cmpf .olt main_v9 main_v10
  let main_c_3 : IVec S_ 1 := constantI S_ 1 1#1
  let main_v12 : IVec S_ 1 := (fun x v => Host.reduce IntOp.andi x v reducesTo_S20000x256_S_d0_1 h_S_) main_v11 main_c_3
  let main_v13 : IVec S_ 1 := andi main_v8 main_v12
  let main_v14 : FVec F S20000x256 .f32 := Host.absf main_arg4
  let main_cst_4 : FVec F S_ .f32 := constant S_ .f32 0x7F800000#32
  let main_v15 : FVec F S20000x256 .f32 := broadcastInDim S20000x256 ![] bcast_S_S20000x256 main_cst_4
  let main_v16 : IVec S20000x256 1 := cmpf .olt main_v14 main_v15
  fn_part1 (F := F) main_arg5 main_arg6 main_arg7 main_arg8 main_arg9 main_arg10 main_arg11 main_v13 main_v16
-- ==== Kernel.lean ====
abbrev S20000x256 : Shape := ⟨2, ![20000, 256]⟩
abbrev S2x320000 : Shape := ⟨2, ![2, 320000]⟩
abbrev S320000 : Shape := ⟨1, ![320000]⟩
abbrev S4x256x256 : Shape := ⟨3, ![4, 256, 256]⟩
abbrev S4x3x256x256 : Shape := ⟨4, ![4, 3, 256, 256]⟩
abbrev S4x256 : Shape := ⟨2, ![4, 256]⟩
abbrev S3x256 : Shape := ⟨2, ![3, 256]⟩
abbrev S256x1 : Shape := ⟨2, ![256, 1]⟩
abbrev S1 : Shape := ⟨1, ![1]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S320000x256 : Shape := ⟨2, ![320000, 256]⟩
abbrev S1x1 : Shape := ⟨2, ![1, 1]⟩
abbrev S20000x1 : Shape := ⟨2, ![20000, 1]⟩
abbrev S800x256 : Shape := ⟨2, ![800, 256]⟩
abbrev S800x1 : Shape := ⟨2, ![800, 1]⟩
abbrev S1x256x256 : Shape := ⟨3, ![1, 256, 256]⟩
abbrev S256x256 : Shape := ⟨2, ![256, 256]⟩
abbrev S1x1x256x256 : Shape := ⟨4, ![1, 1, 256, 256]⟩
abbrev S1x256 : Shape := ⟨2, ![1, 256]⟩
abbrev S256 : Shape := ⟨1, ![256]⟩

abbrev nBuf : Space → Nat
  | .hbm => 99
  | .vmem => 23
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S320000, .f32⟩
  | .hbm, ⟨3, _⟩ => ⟨S20000x256, .f32⟩
  | .hbm, ⟨4, _⟩ => ⟨S20000x256, .f32⟩
  | .hbm, ⟨5, _⟩ => ⟨S4x256x256, .f32⟩
  | .hbm, ⟨6, _⟩ => ⟨S4x3x256x256, .f32⟩
  | .hbm, ⟨7, _⟩ => ⟨S4x256, .f32⟩
  | .hbm, ⟨8, _⟩ => ⟨S4x256, .f32⟩
  | .hbm, ⟨9, _⟩ => ⟨S3x256, .f32⟩
  | .hbm, ⟨10, _⟩ => ⟨S256x1, .f32⟩
  | .hbm, ⟨11, _⟩ => ⟨S1, .f32⟩
  | .hbm, ⟨12, _⟩ => ⟨S1x320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S_, .f32⟩
  | .hbm, ⟨17, _⟩ => ⟨S20000, .f32⟩
  | .hbm, ⟨18, _⟩ => ⟨S320000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .i1⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000, .f32⟩
  | .hbm, ⟨40, _⟩ => ⟨S320000, .f32⟩
  | .hbm, ⟨41, _⟩ => ⟨S320000, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000, .f32⟩
  | .hbm, ⟨51, _⟩ => ⟨S320000, .f32⟩
  | .hbm, ⟨52, _⟩ => ⟨S320000x1, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S320000x256, .f32⟩
  | .hbm, ⟨63, _⟩ => ⟨S320000x256, .f32⟩
  | .hbm, ⟨64, _⟩ => ⟨S_, .f32⟩
  | .hbm, ⟨65, _⟩ => ⟨S20000x256, .f32⟩
  | .hbm, ⟨66, _⟩ => ⟨S320000x1, .i32⟩
  | .hbm, ⟨67, _⟩ => ⟨S20000x256, .f32⟩
  | .hbm, ⟨68, _⟩ => ⟨S320000x1, .f32⟩
  | .hbm, ⟨69, _⟩ => ⟨S_, .i32⟩
  | .hbm, ⟨70, _⟩ => ⟨S320000, .i32⟩
  | .hbm, ⟨71, _⟩ => ⟨S320000, .i1⟩
  | .hbm, ⟨72, _⟩ => ⟨S_, .i32⟩
  | .hbm, ⟨73, _⟩ => ⟨S320000, .i32⟩
  | .hbm, ⟨74, _⟩ => ⟨S320000, .i32⟩
  | .hbm, ⟨75, _⟩ => ⟨S320000, .i32⟩
  | .hbm, ⟨76, _⟩ => ⟨S320000x1, .i32⟩
  | .hbm, ⟨77, _⟩ => ⟨S320000x256, .f32⟩
  | .hbm, ⟨78, _⟩ => ⟨S320000x256, .f32⟩
  | .hbm, ⟨79, _⟩ => ⟨S320000x256, .f32⟩
  | .hbm, ⟨80, _⟩ => ⟨S_, .f32⟩
  | .hbm, ⟨81, _⟩ => ⟨S20000x256, .f32⟩
  | .hbm, ⟨82, _⟩ => ⟨S320000x1, .i32⟩
  | .hbm, ⟨83, _⟩ => ⟨S20000x256, .f32⟩
  | .hbm, ⟨84, _⟩ => ⟨S_, .f32⟩
  | .hbm, ⟨85, _⟩ => ⟨S20000x256, .f32⟩
  | .hbm, ⟨86, _⟩ => ⟨S20000x256, .f32⟩
  | .hbm, ⟨87, _⟩ => ⟨S20000x256, .f32⟩
  | .hbm, ⟨88, _⟩ => ⟨S20000x256, .bf16⟩
  | .hbm, ⟨89, _⟩ => ⟨S20000x256, .bf16⟩
  | .hbm, ⟨90, _⟩ => ⟨S20000x256, .bf16⟩
  | .hbm, ⟨91, _⟩ => ⟨S20000x256, .bf16⟩
  | .hbm, ⟨92, _⟩ => ⟨S4x256x256, .bf16⟩
  | .hbm, ⟨93, _⟩ => ⟨S4x3x256x256, .bf16⟩
  | .hbm, ⟨94, _⟩ => ⟨S256x1, .bf16⟩
  | .hbm, ⟨95, _⟩ => ⟨S1x1, .f32⟩
  | .hbm, ⟨96, _⟩ => ⟨S20000x256, .f32⟩
  | .hbm, ⟨97, _⟩ => ⟨S20000x256, .f32⟩
  | .hbm, ⟨98, _⟩ => ⟨S20000x1, .f32⟩
  | .local _ .vmem, ⟨0, _⟩ => ⟨S800x256, .bf16⟩
  | .local _ .vmem, ⟨1, _⟩ => ⟨S800x256, .bf16⟩
  | .local _ .vmem, ⟨2, _⟩ => ⟨S800x256, .bf16⟩
  | .local _ .vmem, ⟨3, _⟩ => ⟨S800x256, .bf16⟩
  | .local _ .vmem, ⟨4, _⟩ => ⟨S800x256, .bf16⟩
  | .local _ .vmem, ⟨5, _⟩ => ⟨S800x256, .bf16⟩
  | .local _ .vmem, ⟨6, _⟩ => ⟨S800x256, .bf16⟩
  | .local _ .vmem, ⟨7, _⟩ => ⟨S800x256, .bf16⟩
  | .local _ .vmem, ⟨8, _⟩ => ⟨S800x256, .f32⟩
  | .local _ .vmem, ⟨9, _⟩ => ⟨S800x256, .f32⟩
  | .local _ .vmem, ⟨10, _⟩ => ⟨S4x256x256, .bf16⟩
  | .local _ .vmem, ⟨11, _⟩ => ⟨S4x3x256x256, .bf16⟩
  | .local _ .vmem, ⟨12, _⟩ => ⟨S4x256, .f32⟩
  | .local _ .vmem, ⟨13, _⟩ => ⟨S4x256, .f32⟩
  | .local _ .vmem, ⟨14, _⟩ => ⟨S3x256, .f32⟩
  | .local _ .vmem, ⟨15, _⟩ => ⟨S256x1, .bf16⟩
  | .local _ .vmem, ⟨16, _⟩ => ⟨S1x1, .f32⟩
  | .local _ .vmem, ⟨17, _⟩ => ⟨S800x256, .f32⟩
  | .local _ .vmem, ⟨18, _⟩ => ⟨S800x256, .f32⟩
  | .local _ .vmem, ⟨19, _⟩ => ⟨S800x256, .f32⟩
  | .local _ .vmem, ⟨20, _⟩ => ⟨S800x256, .f32⟩
  | .local _ .vmem, ⟨21, _⟩ => ⟨S800x1, .f32⟩
  | .local _ .vmem, ⟨22, _⟩ => ⟨S800x1, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67_0 : Ref sig .tc := ⟨.hbm, 96, rfl⟩
abbrev main_v67_1 : Ref sig .tc := ⟨.hbm, 97, rfl⟩
abbrev main_v67_2 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S800x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S800x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S800x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S800x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S800x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bitsLt_bf16_f32 : FTy.bits .bf16 < FTy.bits .f32
  shapeCasts_S1_S1x1 : S1.ShapeCasts S1x1
  inb_S800x256_S800x256_0_0 : ∀ a, (![0, 0] : Fin 2 → Nat) a + S800x256.size a ≤ S800x256.size a
  h_S800x256 : 0 < S800x256.numel
  shapeCasts_S800x256_S800x256 : S800x256.ShapeCasts S800x256
  inb_S4x256x256_S4x256x256_0_0_0 : ∀ a, (![0, 0, 0] : Fin 3 → Nat) a + S4x256x256.size a ≤ S4x256x256.size a
  h_S4x256x256 : 0 < S4x256x256.numel
  shapeCasts_S4x256x256_S4x256x256 : S4x256x256.ShapeCasts S4x256x256
  inb_S4x3x256x256_S4x3x256x256_0_0_0_0 : ∀ a, (![0, 0, 0, 0] : Fin 4 → Nat) a + S4x3x256x256.size a ≤ S4x3x256x256.size a
  h_S4x3x256x256 : 0 < S4x3x256x256.numel
  shapeCasts_S4x3x256x256_S4x3x256x256 : S4x3x256x256.ShapeCasts S4x3x256x256
  inb_S4x256_S4x256_0_0 : ∀ a, (![0, 0] : Fin 2 → Nat) a + S4x256.size a ≤ S4x256.size a
  h_S4x256 : 0 < S4x256.numel
  inb_S3x256_S3x256_0_0 : ∀ a, (![0, 0] : Fin 2 → Nat) a + S3x256.size a ≤ S3x256.size a
  h_S3x256 : 0 < S3x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S4x256x256_o0_0_0_S1x256x256 : S4x256x256.Slices ![0, 0, 0] S1x256x256
  shapeCasts_S1x256x256_S256x256 : S1x256x256.ShapeCasts S256x256
  slices_S4x3x256x256_o0_0_0_0_S1x1x256x256 : S4x3x256x256.Slices ![0, 0, 0, 0] S1x1x256x256
  shapeCasts_S1x1x256x256_S256x256 : S1x1x256x256.ShapeCasts S256x256
  slices_S4x3x256x256_o0_1_0_0_S1x1x256x256 : S4x3x256x256.Slices ![0, 1, 0, 0] S1x1x256x256
  slices_S4x3x256x256_o0_2_0_0_S1x1x256x256 : S4x3x256x256.Slices ![0, 2, 0, 0] S1x1x256x256
  slices_S4x256_o0_0_S1x256 : S4x256.Slices ![0, 0] S1x256
  shapeCasts_S1x256_S256 : S1x256.ShapeCasts S256
  shapeCasts_S256_S1x256 : S256.ShapeCasts S1x256
  broadcasts_S1x256_S800x256 : S1x256.Broadcasts S800x256
  slices_S3x256_o0_0_S1x256 : S3x256.Slices ![0, 0] S1x256
  slices_S4x256x256_o1_0_0_S1x256x256 : S4x256x256.Slices ![1, 0, 0] S1x256x256
  slices_S4x3x256x256_o1_0_0_0_S1x1x256x256 : S4x3x256x256.Slices ![1, 0, 0, 0] S1x1x256x256
  slices_S4x3x256x256_o1_1_0_0_S1x1x256x256 : S4x3x256x256.Slices ![1, 1, 0, 0] S1x1x256x256
  slices_S4x3x256x256_o1_2_0_0_S1x1x256x256 : S4x3x256x256.Slices ![1, 2, 0, 0] S1x1x256x256
  slices_S4x256_o1_0_S1x256 : S4x256.Slices ![1, 0] S1x256
  slices_S3x256_o1_0_S1x256 : S3x256.Slices ![1, 0] S1x256
  slices_S4x256x256_o2_0_0_S1x256x256 : S4x256x256.Slices ![2, 0, 0] S1x256x256
  slices_S4x3x256x256_o2_0_0_0_S1x1x256x256 : S4x3x256x256.Slices ![2, 0, 0, 0] S1x1x256x256
  slices_S4x3x256x256_o2_1_0_0_S1x1x256x256 : S4x3x256x256.Slices ![2, 1, 0, 0] S1x1x256x256
  slices_S4x3x256x256_o2_2_0_0_S1x1x256x256 : S4x3x256x256.Slices ![2, 2, 0, 0] S1x1x256x256
  slices_S4x256_o2_0_S1x256 : S4x256.Slices ![2, 0] S1x256
  slices_S4x256x256_o3_0_0_S1x256x256 : S4x256x256.Slices ![3, 0, 0] S1x256x256
  slices_S4x3x256x256_o3_0_0_0_S1x1x256x256 : S4x3x256x256.Slices ![3, 0, 0, 0] S1x1x256x256
  slices_S4x3x256x256_o3_1_0_0_S1x1x256x256 : S4x3x256x256.Slices ![3, 1, 0, 0] S1x1x256x256
  slices_S4x3x256x256_o3_2_0_0_S1x1x256x256 : S4x3x256x256.Slices ![3, 2, 0, 0] S1x1x256x256
  slices_S4x256_o3_0_S1x256 : S4x256.Slices ![3, 0] S1x256
  slices_S3x256_o2_0_S1x256 : S3x256.Slices ![2, 0] S1x256
  broadcasts_S1x1_S800x1 : S1x1.Broadcasts S800x1
  inb_S800x1_S800x1_0_0 : ∀ a, (![0, 0] : Fin 2 → Nat) a + S800x1.size a ≤ S800x1.size a
  h_S800x1 : 0 < S800x1.numel
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S800x256_S256x256_S800x256_1_0_0_1_n_n_wf : DotDims.WF S800x256 S256x256 S800x256 [1] [0] [0] [1] [] []
  dot_S800x256_S256x1_S800x1_1_0_0_1_n_n_wf : DotDims.WF S800x256 S256x1 S800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x256.size a ≤ S20000x256.size a
  hwx0_0 : ∀ i : grid0.Coords, EltTy.bits .bf16 = 32 ∨ (Rect.block (s := S20000x256) S800x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x256.size a ≤ S20000x256.size a
  hwx0_1 : ∀ i : grid0.Coords, EltTy.bits .bf16 = 32 ∨ (Rect.block (s := S20000x256) S800x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x256.size a ≤ S20000x256.size a
  hwx0_2 : ∀ i : grid0.Coords, EltTy.bits .bf16 = 32 ∨ (Rect.block (s := S20000x256) S800x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x256.size a ≤ S20000x256.size a
  hwx0_3 : ∀ i : grid0.Coords, EltTy.bits .bf16 = 32 ∨ (Rect.block (s := S20000x256) S800x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S800x256.size a ≤ S20000x256.size a
  hwx0_4 : ∀ i : grid0.Coords, EltTy.bits .f32 = 32 ∨ (Rect.block (s := S20000x256) S800x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256x256.size a ≤ S4x256x256.size a
  hwx0_5 : ∀ i : grid0.Coords, EltTy.bits .bf16 = 32 ∨ (Rect.block (s := S4x256x256) S4x256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x3x256x256.size a ≤ S4x3x256x256.size a
  hwx0_6 : ∀ i : grid0.Coords, EltTy.bits .bf16 = 32 ∨ (Rect.block (s := S4x3x256x256) S4x3x256x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x256.size a ≤ S4x256.size a
  hwx0_7 : ∀ i : grid0.Coords, EltTy.bits .f32 = 32 ∨ (Rect.block (s := S4x256) S4x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x256.size a ≤ S3x256.size a
  hwx0_9 : ∀ i : grid0.Coords, EltTy.bits .f32 = 32 ∨ (Rect.block (s := S3x256) S3x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .bf16 = 32 ∨ (Rect.block (s := S256x1) S256x1.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S800x256.size a ≤ S20000x256.size a
  hwx0_12 : ∀ i : grid0.Coords, EltTy.bits .f32 = 32 ∨ (Rect.block (s := S20000x256) S800x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S800x256.size a ≤ S20000x256.size a
  hwx0_13 : ∀ i : grid0.Coords, EltTy.bits .f32 = 32 ∨ (Rect.block (s := S20000x256) S800x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S800x1.size a ≤ S20000x1.size a
  hwx0_14 : ∀ i : grid0.Coords, EltTy.bits .f32 = 32 ∨ (Rect.block (s := S20000x1) S800x1.size (cc0_transform_14 i) (hinb0_14 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S800x256_S256x256_S800x256_1_0_0_1_n_n : DotDims S800x256 S256x256 S800x256 where
  lhsContracting := [1]
  rhsContracting := [0]
  lhsNonContracting := [0]
  rhsNonContracting := [1]
  lhsBatch := []
  rhsBatch := []
  wf := dot_S800x256_S256x256_S800x256_1_0_0_1_n_n_wf
def dot_S800x256_S256x1_S800x1_1_0_0_1_n_n : DotDims S800x256 S256x1 S800x1 where
  lhsContracting := [1]
  rhsContracting := [0]
  lhsNonContracting := [0]
  rhsNonContracting := [1]
  lhsBatch := []
  rhsBatch := []
  wf := dot_S800x256_S256x1_S800x1_1_0_0_1_n_n_wf

abbrev win0_0 : Pipeline.Window sig grid0 :=
  Pipeline.Window.ofSpec (Memref.whole main_v59) S800x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S800x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v61) S800x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v62) S800x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S800x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v63) S4x256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v64) S4x3x256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S3x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v65) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v66) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v67_0) S800x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v67_1) S800x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v67_2) S800x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S320000 : Shape := ⟨1, ![320000]⟩
abbrev S4x256x256 : Shape := ⟨3, ![4, 256, 256]⟩
abbrev S4x3x256x256 : Shape := ⟨4, ![4, 3, 256, 256]⟩
abbrev S4x256 : Shape := ⟨2, ![4, 256]⟩
abbrev S3x256 : Shape := ⟨2, ![3, 256]⟩
abbrev S256x1 : Shape := ⟨2, ![256, 1]⟩
abbrev S1 : Shape := ⟨1, ![1]⟩
abbrev S1x320000 : Shape := ⟨2, ![1, 320000]⟩
abbrev S_ : Shape := ⟨0, ![]⟩
abbrev S20000 : Shape := ⟨1, ![20000]⟩
abbrev S320000x1 : Shape := ⟨2, ![320000, 1]⟩
abbrev S1x256x256 : Shape := ⟨3, ![1, 256, 256]⟩
abbrev S256x256 : Shape := ⟨2, ![256, 256]⟩
abbrev S1x3x256x256 : Shape := ⟨4, ![1, 3, 256, 256]⟩
abbrev S3x256x256 : Shape := ⟨3, ![3, 256, 256]⟩
abbrev S1x256 : Shape := ⟨2, ![1, 256]⟩
abbrev S256 : Shape := ⟨1, ![256]⟩
abbrev S320000x256 : Shape := ⟨2, ![320000, 256]⟩
abbrev S20000x1 : Shape := ⟨2, ![20000, 1]⟩
abbrev S1x1 : Shape := ⟨2, ![1, 1]⟩

abbrev nBuf : Space → Nat
  | .hbm => 359
  | .vmem => 0
  | .smem => 0
  | _ => 0

abbrev hbmTy0_0 (i : Nat) : BufTy := match i % 128 with
  | 0 => ⟨S20000x256, .f32⟩
  | 1 => ⟨S2x320000, .i32⟩
  | 2 => ⟨S320000, .f32⟩
  | 3 => ⟨S20000x256, .f32⟩
  | 4 => ⟨S20000x256, .f32⟩
  | 5 => ⟨S4x256x256, .f32⟩
  | 6 => ⟨S4x3x256x256, .f32⟩
  | 7 => ⟨S4x256, .f32⟩
  | 8 => ⟨S4x256, .f32⟩
  | 9 => ⟨S3x256, .f32⟩
  | 10 => ⟨S256x1, .f32⟩
  | 11 => ⟨S1, .f32⟩
  | 12 => ⟨S1x320000, .i32⟩
  | 13 => ⟨S320000, .i32⟩
  | 14 => ⟨S1x320000, .i32⟩
  | 15 => ⟨S320000, .i32⟩
  | 16 => ⟨S_, .f32⟩
  | 17 => ⟨S20000, .f32⟩
  | 18 => ⟨S320000x1, .i32⟩
  | 19 => ⟨S20000, .f32⟩
  | 20 => ⟨S_, .f32⟩
  | 21 => ⟨S20000, .f32⟩
  | 22 => ⟨S20000, .i1⟩
  | 23 => ⟨S_, .f32⟩
  | 24 => ⟨S20000, .f32⟩
  | 25 => ⟨S20000, .f32⟩
  | 26 => ⟨S20000, .f32⟩
  | 27 => ⟨S_, .f32⟩
  | 28 => ⟨S_, .f32⟩
  | 29 => ⟨S20000, .f32⟩
  | 30 => ⟨S20000, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000, .f32⟩
  | 40 => ⟨S320000, .f32⟩
  | 41 => ⟨S320000, .f32⟩
  | 42 => ⟨S_, .i32⟩
  | 43 => ⟨S320000, .i32⟩
  | 44 => ⟨S320000, .i1⟩
  | 45 => ⟨S_, .i32⟩
  | 46 => ⟨S320000, .i32⟩
  | 47 => ⟨S320000, .i32⟩
  | 48 => ⟨S320000, .i32⟩
  | 49 => ⟨S320000x1, .i32⟩
  | 50 => ⟨S320000, .f32⟩
  | 51 => ⟨S320000, .f32⟩
  | 52 => ⟨S1x256x256, .f32⟩
  | 53 => ⟨S256x256, .f32⟩
  | 54 => ⟨S20000x256, .f32⟩
  | 55 => ⟨S1x3x256x256, .f32⟩
  | 56 => ⟨S3x256x256, .f32⟩
  | 57 => ⟨S1x256, .f32⟩
  | 58 => ⟨S256, .f32⟩
  | 59 => ⟨S1x256x256, .f32⟩
  | 60 => ⟨S256x256, .f32⟩
  | 61 => ⟨S20000x256, .f32⟩
  | 62 => ⟨S320000x1, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .f32⟩
  | 72 => ⟨S320000x256, .f32⟩
  | 73 => ⟨S320000x256, .f32⟩
  | 74 => ⟨S_, .f32⟩
  | 75 => ⟨S20000x256, .f32⟩
  | 76 => ⟨S320000x1, .i32⟩
  | 77 => ⟨S20000x256, .f32⟩
  | 78 => ⟨S1x256x256, .f32⟩
  | 79 => ⟨S256x256, .f32⟩
  | 80 => ⟨S20000x256, .f32⟩
  | 81 => ⟨S20000x256, .f32⟩
  | 82 => ⟨S320000x1, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x256, .f32⟩
  | 92 => ⟨S320000x256, .f32⟩
  | 93 => ⟨S320000x256, .f32⟩
  | 94 => ⟨S_, .f32⟩
  | 95 => ⟨S20000x256, .f32⟩
  | 96 => ⟨S320000x1, .i32⟩
  | 97 => ⟨S20000x256, .f32⟩
  | 98 => ⟨S_, .f32⟩
  | 99 => ⟨S20000x256, .f32⟩
  | 100 => ⟨S20000x256, .f32⟩
  | 101 => ⟨S20000x256, .f32⟩
  | 102 => ⟨S1x256x256, .f32⟩
  | 103 => ⟨S256x256, .f32⟩
  | 104 => ⟨S20000x256, .f32⟩
  | 105 => ⟨S20000x256, .f32⟩
  | 106 => ⟨S1x256, .f32⟩
  | 107 => ⟨S20000x256, .f32⟩
  | 108 => ⟨S20000x256, .f32⟩
  | 109 => ⟨S20000x256, .f32⟩
  | 110 => ⟨S1x256, .f32⟩
  | 111 => ⟨S256, .f32⟩
  | 112 => ⟨S1x256, .f32⟩
  | 113 => ⟨S20000x256, .f32⟩
  | 114 => ⟨S20000x256, .f32⟩
  | 115 => ⟨S20000x256, .f32⟩
  | 116 => ⟨S1x256, .f32⟩
  | 117 => ⟨S256, .f32⟩
  | 118 => ⟨S1x256, .f32⟩
  | 119 => ⟨S20000x256, .f32⟩
  | 120 => ⟨S20000x256, .f32⟩
  | 121 => ⟨S20000x256, .f32⟩
  | 122 => ⟨S20000x256, .f32⟩
  | 123 => ⟨S_, .f32⟩
  | 124 => ⟨S20000x256, .f32⟩
  | 125 => ⟨S20000x256, .f32⟩
  | 126 => ⟨S_, .f32⟩
  | 127 => ⟨S20000x256, .f32⟩
  | _ => ⟨S20000x256, .f32⟩

abbrev hbmTy0_1 (i : Nat) : BufTy := match i % 128 with
  | 0 => ⟨S20000x256, .f32⟩
  | 1 => ⟨S1x256x256, .f32⟩
  | 2 => ⟨S256x256, .f32⟩
  | 3 => ⟨S20000x256, .f32⟩
  | 4 => ⟨S1x3x256x256, .f32⟩
  | 5 => ⟨S3x256x256, .f32⟩
  | 6 => ⟨S1x256, .f32⟩
  | 7 => ⟨S256, .f32⟩
  | 8 => ⟨S1x256x256, .f32⟩
  | 9 => ⟨S256x256, .f32⟩
  | 10 => ⟨S20000x256, .f32⟩
  | 11 => ⟨S320000x1, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x256, .f32⟩
  | 21 => ⟨S320000x256, .f32⟩
  | 22 => ⟨S320000x256, .f32⟩
  | 23 => ⟨S_, .f32⟩
  | 24 => ⟨S20000x256, .f32⟩
  | 25 => ⟨S320000x1, .i32⟩
  | 26 => ⟨S20000x256, .f32⟩
  | 27 => ⟨S1x256x256, .f32⟩
  | 28 => ⟨S256x256, .f32⟩
  | 29 => ⟨S20000x256, .f32⟩
  | 30 => ⟨S20000x256, .f32⟩
  | 31 => ⟨S320000x1, .f32⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000x256, .f32⟩
  | 41 => ⟨S320000x256, .f32⟩
  | 42 => ⟨S320000x256, .f32⟩
  | 43 => ⟨S_, .f32⟩
  | 44 => ⟨S20000x256, .f32⟩
  | 45 => ⟨S320000x1, .i32⟩
  | 46 => ⟨S20000x256, .f32⟩
  | 47 => ⟨S_, .f32⟩
  | 48 => ⟨S20000x256, .f32⟩
  | 49 => ⟨S20000x256, .f32⟩
  | 50 => ⟨S20000x256, .f32⟩
  | 51 => ⟨S1x256x256, .f32⟩
  | 52 => ⟨S256x256, .f32⟩
  | 53 => ⟨S20000x256, .f32⟩
  | 54 => ⟨S20000x256, .f32⟩
  | 55 => ⟨S1x256, .f32⟩
  | 56 => ⟨S20000x256, .f32⟩
  | 57 => ⟨S20000x256, .f32⟩
  | 58 => ⟨S20000x256, .f32⟩
  | 59 => ⟨S1x256, .f32⟩
  | 60 => ⟨S256, .f32⟩
  | 61 => ⟨S1x256, .f32⟩
  | 62 => ⟨S20000x256, .f32⟩
  | 63 => ⟨S20000x256, .f32⟩
  | 64 => ⟨S20000x256, .f32⟩
  | 65 => ⟨S1x256, .f32⟩
  | 66 => ⟨S256, .f32⟩
  | 67 => ⟨S1x256, .f32⟩
  | 68 => ⟨S20000x256, .f32⟩
  | 69 => ⟨S20000x256, .f32⟩
  | 70 => ⟨S20000x256, .f32⟩
  | 71 => ⟨S20000x256, .f32⟩
  | 72 => ⟨S_, .f32⟩
  | 73 => ⟨S20000x256, .f32⟩
  | 74 => ⟨S20000x256, .f32⟩
  | 75 => ⟨S_, .f32⟩
  | 76 => ⟨S20000x256, .f32⟩
  | 77 => ⟨S20000x256, .f32⟩
  | 78 => ⟨S1x256x256, .f32⟩
  | 79 => ⟨S256x256, .f32⟩
  | 80 => ⟨S20000x256, .f32⟩
  | 81 => ⟨S1x3x256x256, .f32⟩
  | 82 => ⟨S3x256x256, .f32⟩
  | 83 => ⟨S1x256, .f32⟩
  | 84 => ⟨S256, .f32⟩
  | 85 => ⟨S1x256x256, .f32⟩
  | 86 => ⟨S256x256, .f32⟩
  | 87 => ⟨S20000x256, .f32⟩
  | 88 => ⟨S320000x1, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000x256, .f32⟩
  | 98 => ⟨S320000x256, .f32⟩
  | 99 => ⟨S320000x256, .f32⟩
  | 100 => ⟨S_, .f32⟩
  | 101 => ⟨S20000x256, .f32⟩
  | 102 => ⟨S320000x1, .i32⟩
  | 103 => ⟨S20000x256, .f32⟩
  | 104 => ⟨S1x256x256, .f32⟩
  | 105 => ⟨S256x256, .f32⟩
  | 106 => ⟨S20000x256, .f32⟩
  | 107 => ⟨S20000x256, .f32⟩
  | 108 => ⟨S320000x1, .f32⟩
  | 109 => ⟨S_, .i32⟩
  | 110 => ⟨S320000, .i32⟩
  | 111 => ⟨S320000, .i1⟩
  | 112 => ⟨S_, .i32⟩
  | 113 => ⟨S320000, .i32⟩
  | 114 => ⟨S320000, .i32⟩
  | 115 => ⟨S320000, .i32⟩
  | 116 => ⟨S320000x1, .i32⟩
  | 117 => ⟨S320000x256, .f32⟩
  | 118 => ⟨S320000x256, .f32⟩
  | 119 => ⟨S320000x256, .f32⟩
  | 120 => ⟨S_, .f32⟩
  | 121 => ⟨S20000x256, .f32⟩
  | 122 => ⟨S320000x1, .i32⟩
  | 123 => ⟨S20000x256, .f32⟩
  | 124 => ⟨S_, .f32⟩
  | 125 => ⟨S20000x256, .f32⟩
  | 126 => ⟨S20000x256, .f32⟩
  | 127 => ⟨S20000x256, .f32⟩
  | _ => ⟨S20000x256, .f32⟩

abbrev hbmTy0_2 (i : Nat) : BufTy := match i % 128 with
  | 0 => ⟨S1x256x256, .f32⟩
  | 1 => ⟨S256x256, .f32⟩
  | 2 => ⟨S20000x256, .f32⟩
  | 3 => ⟨S20000x256, .f32⟩
  | 4 => ⟨S1x256, .f32⟩
  | 5 => ⟨S20000x256, .f32⟩
  | 6 => ⟨S20000x256, .f32⟩
  | 7 => ⟨S20000x256, .f32⟩
  | 8 => ⟨S1x256, .f32⟩
  | 9 => ⟨S256, .f32⟩
  | 10 => ⟨S1x256, .f32⟩
  | 11 => ⟨S20000x256, .f32⟩
  | 12 => ⟨S20000x256, .f32⟩
  | 13 => ⟨S20000x256, .f32⟩
  | 14 => ⟨S20000x256, .f32⟩
  | 15 => ⟨S20000x256, .f32⟩
  | 16 => ⟨S20000x256, .f32⟩
  | 17 => ⟨S1x256x256, .f32⟩
  | 18 => ⟨S256x256, .f32⟩
  | 19 => ⟨S20000x256, .f32⟩
  | 20 => ⟨S1x3x256x256, .f32⟩
  | 21 => ⟨S3x256x256, .f32⟩
  | 22 => ⟨S1x256, .f32⟩
  | 23 => ⟨S256, .f32⟩
  | 24 => ⟨S1x256x256, .f32⟩
  | 25 => ⟨S256x256, .f32⟩
  | 26 => ⟨S20000x256, .f32⟩
  | 27 => ⟨S320000x1, .f32⟩
  | 28 => ⟨S_, .i32⟩
  | 29 => ⟨S320000, .i32⟩
  | 30 => ⟨S320000, .i1⟩
  | 31 => ⟨S_, .i32⟩
  | 32 => ⟨S320000, .i32⟩
  | 33 => ⟨S320000, .i32⟩
  | 34 => ⟨S320000, .i32⟩
  | 35 => ⟨S320000x1, .i32⟩
  | 36 => ⟨S320000x256, .f32⟩
  | 37 => ⟨S320000x256, .f32⟩
  | 38 => ⟨S320000x256, .f32⟩
  | 39 => ⟨S_, .f32⟩
  | 40 => ⟨S20000x256, .f32⟩
  | 41 => ⟨S320000x1, .i32⟩
  | 42 => ⟨S20000x256, .f32⟩
  | 43 => ⟨S1x256x256, .f32⟩
  | 44 => ⟨S256x256, .f32⟩
  | 45 => ⟨S20000x256, .f32⟩
  | 46 => ⟨S20000x256, .f32⟩
  | 47 => ⟨S320000x1, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S320000x256, .f32⟩
  | 57 => ⟨S320000x256, .f32⟩
  | 58 => ⟨S320000x256, .f32⟩
  | 59 => ⟨S_, .f32⟩
  | 60 => ⟨S20000x256, .f32⟩
  | 61 => ⟨S320000x1, .i32⟩
  | 62 => ⟨S20000x256, .f32⟩
  | 63 => ⟨S_, .f32⟩
  | 64 => ⟨S20000x256, .f32⟩
  | 65 => ⟨S20000x256, .f32⟩
  | 66 => ⟨S20000x256, .f32⟩
  | 67 => ⟨S1x256x256, .f32⟩
  | 68 => ⟨S256x256, .f32⟩
  | 69 => ⟨S20000x256, .f32⟩
  | 70 => ⟨S20000x256, .f32⟩
  | 71 => ⟨S1x256, .f32⟩
  | 72 => ⟨S20000x256, .f32⟩
  | 73 => ⟨S20000x256, .f32⟩
  | 74 => ⟨S20000x256, .f32⟩
  | 75 => ⟨S1x256, .f32⟩
  | 76 => ⟨S256, .f32⟩
  | 77 => ⟨S1x256, .f32⟩
  | 78 => ⟨S20000x256, .f32⟩
  | 79 => ⟨S20000x256, .f32⟩
  | 80 => ⟨S20000x256, .f32⟩
  | 81 => ⟨S1x256, .f32⟩
  | 82 => ⟨S256, .f32⟩
  | 83 => ⟨S1x256, .f32⟩
  | 84 => ⟨S20000x256, .f32⟩
  | 85 => ⟨S20000x256, .f32⟩
  | 86 => ⟨S20000x256, .f32⟩
  | 87 => ⟨S20000x256, .f32⟩
  | 88 => ⟨S_, .f32⟩
  | 89 => ⟨S20000x256, .f32⟩
  | 90 => ⟨S20000x256, .f32⟩
  | 91 => ⟨S_, .f32⟩
  | 92 => ⟨S20000x256, .f32⟩
  | 93 => ⟨S20000x256, .f32⟩
  | 94 => ⟨S20000x256, .f32⟩
  | 95 => ⟨S20000x256, .f32⟩
  | 96 => ⟨S_, .f32⟩
  | 97 => ⟨S20000x256, .f32⟩
  | 98 => ⟨S20000x256, .f32⟩
  | 99 => ⟨S20000x1, .f32⟩
  | 100 => ⟨S1x1, .f32⟩
  | 101 => ⟨S20000x1, .f32⟩
  | 102 => ⟨S20000x1, .f32⟩
  | _ => ⟨S20000x256, .f32⟩

abbrev hbmTy (i : Nat) : BufTy := match i / 128 with
  | 0 => hbmTy0_0 i
  | 1 => hbmTy0_1 i
  | 2 => hbmTy0_2 i
  | _ => ⟨S20000x256, .f32⟩

abbrev bufTy : (tb : Table) → Fin (tcTables nBuf tb) → BufTy
  | .hbm, ⟨i, _⟩ => hbmTy i
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_6 : Ref sig .tc := ⟨.hbm, 63, rfl⟩
abbrev main_v41 : Ref sig .tc := ⟨.hbm, 64, rfl⟩
abbrev main_v42 : Ref sig .tc := ⟨.hbm, 65, rfl⟩
abbrev main_c_7 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_9 : Ref sig .tc := ⟨.hbm, 83, rfl⟩
abbrev main_v58 : Ref sig .tc := ⟨.hbm, 84, rfl⟩
abbrev main_v59 : Ref sig .tc := ⟨.hbm, 85, rfl⟩
abbrev main_c_10 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_13 : Ref sig .tc := ⟨.hbm, 123, rfl⟩
abbrev main_v94 : Ref sig .tc := ⟨.hbm, 124, rfl⟩
abbrev main_v95 : Ref sig .tc := ⟨.hbm, 125, rfl⟩
abbrev main_cst_14 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_c_15 : Ref sig .tc := ⟨.hbm, 140, rfl⟩
abbrev main_v109 : Ref sig .tc := ⟨.hbm, 141, rfl⟩
abbrev main_v110 : Ref sig .tc := ⟨.hbm, 142, rfl⟩
abbrev main_c_16 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_17 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_c_18 : Ref sig .tc := ⟨.hbm, 160, rfl⟩
abbrev main_v126 : Ref sig .tc := ⟨.hbm, 161, rfl⟩
abbrev main_v127 : Ref sig .tc := ⟨.hbm, 162, rfl⟩
abbrev main_c_19 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_20 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_21 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_cst_22 : Ref sig .tc := ⟨.hbm, 200, rfl⟩
abbrev main_v162 : Ref sig .tc := ⟨.hbm, 201, rfl⟩
abbrev main_v163 : Ref sig .tc := ⟨.hbm, 202, rfl⟩
abbrev main_cst_23 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_c_24 : Ref sig .tc := ⟨.hbm, 217, rfl⟩
abbrev main_v177 : Ref sig .tc := ⟨.hbm, 218, rfl⟩
abbrev main_v178 : Ref sig .tc := ⟨.hbm, 219, rfl⟩
abbrev main_c_25 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_cst_26 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_c_27 : Ref sig .tc := ⟨.hbm, 237, rfl⟩
abbrev main_v194 : Ref sig .tc := ⟨.hbm, 238, rfl⟩
abbrev main_v195 : Ref sig .tc := ⟨.hbm, 239, rfl⟩
abbrev main_c_28 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_cst_29 : Ref sig .tc := ⟨.hbm, 248, rfl⟩
abbrev main_v203 : Ref sig .tc := ⟨.hbm, 249, rfl⟩
abbrev main_v204 : Ref sig .tc := ⟨.hbm, 250, rfl⟩
abbrev main_v205 : Ref sig .tc := ⟨.hbm, 251, rfl⟩
abbrev main_cst_30 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_c_31 : Ref sig .tc := ⟨.hbm, 284, rfl⟩
abbrev main_v237 : Ref sig .tc := ⟨.hbm, 285, rfl⟩
abbrev main_v238 : Ref sig .tc := ⟨.hbm, 286, rfl⟩
abbrev main_c_32 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_cst_33 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_c_34 : Ref sig .tc := ⟨.hbm, 304, rfl⟩
abbrev main_v254 : Ref sig .tc := ⟨.hbm, 305, rfl⟩
abbrev main_v255 : Ref sig .tc := ⟨.hbm, 306, rfl⟩
abbrev main_c_35 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_cst_36 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_cst_37 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_cst_38 : Ref sig .tc := ⟨.hbm, 344, rfl⟩
abbrev main_v290 : Ref sig .tc := ⟨.hbm, 345, rfl⟩
abbrev main_v291 : Ref sig .tc := ⟨.hbm, 346, rfl⟩
abbrev main_cst_39 : Ref sig .tc := ⟨.hbm, 347, rfl⟩
abbrev main_v292 : Ref sig .tc := ⟨.hbm, 348, rfl⟩
abbrev main_v293 : Ref sig .tc := ⟨.hbm, 349, rfl⟩
abbrev main_v294 : Ref sig .tc := ⟨.hbm, 350, rfl⟩
abbrev main_v295 : Ref sig .tc := ⟨.hbm, 351, rfl⟩
abbrev main_call1_cst : Ref sig .tc := ⟨.hbm, 352, rfl⟩
abbrev main_call1_v0 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S20000 : S_.BroadcastsInDim S20000 (![] : Fin 0 → Fin S20000.rank)
  bcast_S320000_S320000x1_0 : S320000.BroadcastsInDim S320000x1 (![0] : Fin 1 → Fin S320000x1.rank)
  bcast_S_S320000 : S_.BroadcastsInDim S320000 (![] : Fin 0 → Fin S320000.rank)
  slices_S4x256x256_S1x256x256_0_0_0 : S4x256x256.Slices ![0, 0, 0] S1x256x256
  shapeCasts_S1x256x256_S256x256 : S1x256x256.ShapeCasts S256x256
  slices_S4x3x256x256_S1x3x256x256_0_0_0_0 : S4x3x256x256.Slices ![0, 0, 0, 0] S1x3x256x256
  shapeCasts_S1x3x256x256_S3x256x256 : S1x3x256x256.ShapeCasts S3x256x256
  slices_S4x256_S1x256_0_0 : S4x256.Slices ![0, 0] S1x256
  shapeCasts_S1x256_S256 : S1x256.ShapeCasts S256
  slices_S3x256x256_S1x256x256_0_0_0 : S3x256x256.Slices ![0, 0, 0] S1x256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256x256_S1x256x256_1_0_0 : S3x256x256.Slices ![1, 0, 0] S1x256x256
  slices_S3x256x256_S1x256x256_2_0_0 : S3x256x256.Slices ![2, 0, 0] S1x256x256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S3x256_S1x256_0_0 : S3x256.Slices ![0, 0] S1x256
  slices_S4x256x256_S1x256x256_1_0_0 : S4x256x256.Slices ![1, 0, 0] S1x256x256
  slices_S4x3x256x256_S1x3x256x256_1_0_0_0 : S4x3x256x256.Slices ![1, 0, 0, 0] S1x3x256x256
  slices_S4x256_S1x256_1_0 : S4x256.Slices ![1, 0] S1x256
  slices_S3x256_S1x256_1_0 : S3x256.Slices ![1, 0] S1x256
  slices_S4x256x256_S1x256x256_2_0_0 : S4x256x256.Slices ![2, 0, 0] S1x256x256
  slices_S4x3x256x256_S1x3x256x256_2_0_0_0 : S4x3x256x256.Slices ![2, 0, 0, 0] S1x3x256x256
  slices_S4x256_S1x256_2_0 : S4x256.Slices ![2, 0] S1x256
  slices_S4x256x256_S1x256x256_3_0_0 : S4x256x256.Slices ![3, 0, 0] S1x256x256
  slices_S4x3x256x256_S1x3x256x256_3_0_0_0 : S4x3x256x256.Slices ![3, 0, 0, 0] S1x3x256x256
  slices_S4x256_S1x256_3_0 : S4x256.Slices ![3, 0] S1x256
  slices_S3x256_S1x256_2_0 : S3x256.Slices ![2, 0] S1x256
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x1_S20000x1_1_0_0_1_n_n_wf : DotDims.WF S20000x256 S256x1 S20000x1 [1] [0] [0] [1] [] []

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf

class Facts : Prop extends Facts₀ where

variable [Facts]
-- ==== Proof.Cell.lean ====
/-
  One row of a graph-convolutional LSTM cell, on the extended reals.

  The cell mixes a node's input row x and three propagated rows t0, t1, t2 (the node's hidden state and its first and
  second Chebyshev propagations over the graph) through four gates. Gate g's pre-activation at column q is

      x · W[g][:, q]  +  (((t0 · θ[g,0][:, q] + t1 · θ[g,1][:, q]) + t2 · θ[g,2][:, q]) + bc[g, q]),

  each "·" a sum over the 256 features. With c the node's cell state at column q:

      i  = σ ((pre 0 + wc[0,q] * c) + b[0,q])          f = σ ((pre 1 + wc[1,q] * c) + b[1,q])
      t  = tanh (pre 2 + b[2,q])                        c' = f * c + i * t
      o  = σ ((pre 3 + wc[2,q] * c') + b[3,q])         h' = o * tanh c'

  and the node's score is  (Σ_q max(h'_q, 0) * wcls[q,0]) + bcls.  Every sum and product is written in exactly this
  association, so that a program computing the cell in this order agrees with it term by term, with no appeal to
  associativity or distributivity (which fail at the infinities).

  Everything is a function of ONE node's rows: the value at node r of an [n, 256] array of nodes depends on row r of
  each operand only. That is what lets a program that walks the nodes in blocks of rows agree with one that treats all
  nodes at once.
-/
import Idealize.ShloMosaic.Lib.ValueIdx
import Idealize.ShloMosaic.PureOps.Ideal

noncomputable section

open scoped BigOperators

namespace Cert.Cell

open Idealize.ShloMosaic Idealize.ShloMosaic.ValueIdx

/-- One node's 256 features. -/
abbrev Row : Type := Fin 256 → EReal

/-- The cell's weights: the input weights W[g], the Chebyshev weights θ[g, j], the convolution biases bc[g], the gate
    biases b[g] (g = input, forget, candidate, output) and the peephole weights wc (input, forget, output). -/
structure Params where
  W : (⟨3, ![4, 256, 256]⟩ : Shape).Idx → EReal
  θ : (⟨4, ![4, 3, 256, 256]⟩ : Shape).Idx → EReal
  bc : (⟨2, ![4, 256]⟩ : Shape).Idx → EReal
  b : (⟨2, ![4, 256]⟩ : Shape).Idx → EReal
  wc : (⟨2, ![3, 256]⟩ : Shape).Idx → EReal

variable (P : Params)

/-- Gate g's pre-activation at column q: the input row against W[g], plus the Chebyshev convolution of the three
    propagated rows with its bias. -/
def pre (g : Fin 4) (x t0 t1 t2 : Row) (q : Fin 256) : EReal :=
  (∑ k : Fin 256, x k * P.W (ix3 g k q)) +
    ((((∑ k : Fin 256, t0 k * P.θ (ix4 g (0 : Fin 3) k q)) + (∑ k : Fin 256, t1 k * P.θ (ix4 g (1 : Fin 3) k q)))
        + (∑ k : Fin 256, t2 k * P.θ (ix4 g (2 : Fin 3) k q))) + P.bc (ix2 g q))

/-- The input gate. -/
def gateIn (x t0 t1 t2 : Row) (c : EReal) (q : Fin 256) : EReal :=
  Ideal.logistic ((pre P 0 x t0 t1 t2 q + P.wc (ix2 (0 : Fin 3) q) * c) + P.b (ix2 (0 : Fin 4) q))

/-- The forget gate. -/
def gateForget (x t0 t1 t2 : Row) (c : EReal) (q : Fin 256) : EReal :=
  Ideal.logistic ((pre P 1 x t0 t1 t2 q + P.wc (ix2 (1 : Fin 3) q) * c) + P.b (ix2 (1 : Fin 4) q))

/-- The candidate state. -/
def cand (x t0 t1 t2 : Row) (q : Fin 256) : EReal :=
  Ideal.tanh (pre P 2 x t0 t1 t2 q + P.b (ix2 (2 : Fin 4) q))

/-- The new cell state. -/
def cNew (x t0 t1 t2 : Row) (c : EReal) (q : Fin 256) : EReal :=
  gateForget P x t0 t1 t2 c q * c + gateIn P x t0 t1 t2 c q * cand P x t0 t1 t2 q

/-- The output gate, peeping at the NEW cell state. -/
def gateOut (x t0 t1 t2 : Row) (c : EReal) (q : Fin 256) : EReal :=
  Ideal.logistic ((pre P 3 x t0 t1 t2 q + P.wc (ix2 (2 : Fin 3) q) * cNew P x t0 t1 t2 c q) + P.b (ix2 (3 : Fin 4) q))

/-- The new hidden state. -/
def hNew (x t0 t1 t2 : Row) (c : EReal) (q : Fin 256) : EReal :=
  gateOut P x t0 t1 t2 c q * Ideal.tanh (cNew P x t0 t1 t2 c q)

/-- The node's score: the rectified new hidden row against the classifier column, plus its bias. The zero of the
    rectifier is kept as the float word both programs spell. -/
def score (x t0 t1 t2 c : Row) (wcls : (⟨2, ![256, 1]⟩ : Shape).Idx → EReal) (bcls : EReal) : EReal :=
  (∑ k : Fin 256, max (hNew P x t0 t1 t2 (c k) k) (Ideal.ofBits .f32 0x00000000#32) * wcls (ix2 k (0 : Fin 1))) + bcls

/-! ## Arrays of nodes -/

/-- Row r of an [n, 256] array. -/
def row {n : Nat} (A : (⟨2, ![n, 256]⟩ : Shape).Idx → EReal) (r : Fin n) : Row := fun k => A (ix2 r k)

/-- The new hidden states of n nodes. -/
def H {n : Nat} (X T0 T1 T2 C : (⟨2, ![n, 256]⟩ : Shape).Idx → EReal) : (⟨2, ![n, 256]⟩ : Shape).Idx → EReal :=
  fun i => hNew P (row X (i 0)) (row T0 (i 0)) (row T1 (i 0)) (row T2 (i 0)) (C (ix2 (i 0) (i 1))) (i 1)

/-- The new cell states of n nodes. -/
def Cn {n : Nat} (X T0 T1 T2 C : (⟨2, ![n, 256]⟩ : Shape).Idx → EReal) : (⟨2, ![n, 256]⟩ : Shape).Idx → EReal :=
  fun i => cNew P (row X (i 0)) (row T0 (i 0)) (row T1 (i 0)) (row T2 (i 0)) (C (ix2 (i 0) (i 1))) (i 1)

/-- The scores of n nodes. -/
def Out {n : Nat} (X T0 T1 T2 C : (⟨2, ![n, 256]⟩ : Shape).Idx → EReal) (wcls : (⟨2, ![256, 1]⟩ : Shape).Idx → EReal)
    (bcls : EReal) : (⟨2, ![n, 1]⟩ : Shape).Idx → EReal :=
  fun i => score P (row X (i 0)) (row T0 (i 0)) (row T1 (i 0)) (row T2 (i 0)) (row C (i 0)) wcls bcls

theorem H_apply {n : Nat} (X T0 T1 T2 C : (⟨2, ![n, 256]⟩ : Shape).Idx → EReal) (r : Fin n) (q : Fin 256) :
    H P X T0 T1 T2 C (ix2 r q) = hNew P (row X r) (row T0 r) (row T1 r) (row T2 r) (C (ix2 r q)) q := rfl

theorem Cn_apply {n : Nat} (X T0 T1 T2 C : (⟨2, ![n, 256]⟩ : Shape).Idx → EReal) (r : Fin n) (q : Fin 256) :
    Cn P X T0 T1 T2 C (ix2 r q) = cNew P (row X r) (row T0 r) (row T1 r) (row T2 r) (C (ix2 r q)) q := rfl

theorem Out_apply {n : Nat} (X T0 T1 T2 C : (⟨2, ![n, 256]⟩ : Shape).Idx → EReal)
    (wcls : (⟨2, ![256, 1]⟩ : Shape).Idx → EReal) (bcls : EReal) (r : Fin n) (u : Fin 1) :
    Out P X T0 T1 T2 C wcls bcls (ix2 r u) = score P (row X r) (row T0 r) (row T1 r) (row T2 r) (row C r) wcls bcls := rfl

end Cert.Cell

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.LibStackSlices.lean ====
/-
  Slices of stacked weights, read at an index.

  A kernel that keeps a stack of matrices W[g] (shape [n, a, b]) or W[g, j] (shape [n, m, a, b]) in one buffer takes one
  member by slicing a unit block and dropping the unit axes; the matrix so obtained reads, at (k, q), the stack at
  (g, k, q), or at (g, j, k, q). A stack of bias rows v[g] (shape [n, b]) is used by slicing row g, dropping and
  re-adding the unit axis, and laying the row down m rows; the m × b array reads, at (r, q), the stack at (g, q).
-/
import Idealize.ShloMosaic.Lib.ValueLayout

namespace Idealize.ShloMosaic.StackSlices

open Idealize.ShloMosaic Idealize.ShloMosaic.ValueIdx

variable {α : Type}

/-- Member o of a stack [n, a, b], as a matrix, at (k, q). -/
theorem stack3_apply {n a b : Nat} (o : Nat) (ho : o < n) (W : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (k : Fin a) (q : Fin b) :
    shapeCast ⟨2, ![a, b]⟩ (extractStridedSlice ⟨3, ![1, a, b]⟩ ![o, 0, 0] W hs) hc (ix2 k q)
      = W (ix3 (⟨o, ho⟩ : Fin n) k q) := by
  rw [shapeCast_1ab_ab_apply]
  refine extractStridedSlice_apply _ W hs _ _ fun ax => ?_
  match ax with
  | ⟨0, _⟩ => rfl
  | ⟨1, _⟩ => show k.val = 0 + k.val; omega
  | ⟨2, _⟩ => show q.val = 0 + q.val; omega

/-- Member (o, j) of a stack [n, m, a, b], as a matrix, at (k, q). -/
theorem stack4_apply {n m a b : Nat} (o j : Nat) (ho : o < n) (hj : j < m) (W : (⟨4, ![n, m, a, b]⟩ : Shape).Idx → α)
    (hs : (⟨4, ![n, m, a, b]⟩ : Shape).Slices ![o, j, 0, 0] ⟨4, ![1, 1, a, b]⟩)
    (hc : (⟨4, ![1, 1, a, b]⟩ : Shape).ShapeCasts ⟨2, ![a, b]⟩) (k : Fin a) (q : Fin b) :
    shapeCast ⟨2, ![a, b]⟩ (extractStridedSlice ⟨4, ![1, 1, a, b]⟩ ![o, j, 0, 0] W hs) hc (ix2 k q)
      = W (ix4 (⟨o, ho⟩ : Fin n) (⟨j, hj⟩ : Fin m) k q) := by
  refine (shapeCast_apply _ hc (ix2 k q) (ix4 (0 : Fin 1) (0 : Fin 1) k q) ?_).trans ?_
  · rw [Shape.rowMajor_val_four, Shape.rowMajor_val_two]
    show ((0 * 1 + 0) * a + k.val) * b + q.val = k.val * b + q.val
    simp only [Nat.zero_mul, Nat.zero_add]
  · refine extractStridedSlice_apply _ W hs _ _ fun ax => ?_
    match ax with
    | ⟨0, _⟩ => rfl
    | ⟨1, _⟩ => rfl
    | ⟨2, _⟩ => show k.val = 0 + k.val; omega
    | ⟨3, _⟩ => show q.val = 0 + q.val; omega

/-- Row o of a stack [n, b] of rows, laid down m rows, at (r, q). -/
theorem sliceRow_apply {n m b : Nat} (o : Nat) (ho : o < n) (v : (⟨2, ![n, b]⟩ : Shape).Idx → α)
    (hs : (⟨2, ![n, b]⟩ : Shape).Slices ![o, 0] ⟨2, ![1, b]⟩)
    (h1 : (⟨2, ![1, b]⟩ : Shape).ShapeCasts ⟨1, ![b]⟩) (h2 : (⟨1, ![b]⟩ : Shape).ShapeCasts ⟨2, ![1, b]⟩)
    (hb : (⟨2, ![1, b]⟩ : Shape).Broadcasts ⟨2, ![m, b]⟩) (r : Fin m) (q : Fin b) :
    broadcastTo ⟨2, ![m, b]⟩ (shapeCast ⟨2, ![1, b]⟩ (shapeCast ⟨1, ![b]⟩ (extractStridedSlice ⟨2, ![1, b]⟩ ![o, 0] v hs) h1) h2) hb
        (ix2 r q)
      = v (ix2 (⟨o, ho⟩ : Fin n) q) := by
  rw [broadcastTo_1b_ab_apply, shapeCast_a_1a_apply, shapeCast_1a_a_apply]
  refine extractStridedSlice_apply _ v hs _ _ fun ax => ?_
  match ax with
  | ⟨0, _⟩ => rfl
  | ⟨1, _⟩ => show q.val = 0 + q.val; omega

/-- A one-by-one array laid down m rows reads its one element everywhere. -/
theorem oneCell_apply {m : Nat} (v : (⟨2, ![1, 1]⟩ : Shape).Idx → α) (hb : (⟨2, ![1, 1]⟩ : Shape).Broadcasts ⟨2, ![m, 1]⟩)
    (r : Fin m) (u : Fin 1) : broadcastTo ⟨2, ![m, 1]⟩ v hb (ix2 r u) = v (ix2 (0 : Fin 1) (0 : Fin 1)) := by
  rw [broadcastTo_1b_ab_apply]
  have hu : u = 0 := Fin.ext (by omega)
  rw [hu]

end Idealize.ShloMosaic.StackSlices
-- ==== Proof.KernelCell.lean ====
/-
  The kernel body's values at an index.

  The body loads a block of 800 nodes' rows (the input x, the three propagated arrays t0, t1, t2, the cell state c) and
  the whole weights, and stores three blocks: the new hidden states, the new cell states and the scores. Here each value
  the body stores is read at row y and column q of the block and shown to be the cell of Proof/Cell.lean at the y-th
  rows of the loaded blocks: a matrix product against a 256 × 256 member of a weight stack is the sum over the features,
  a bias row sliced from its stack and laid down the rows is the stack at (gate, q), and the sums, products, logistic
  and tanh are taken in the same order as the cell's definition, so nothing beyond unfolding is needed.
-/
import proofs.«121449_j80504866996302_1_alg».proof.Proof.Gen.KernelIdeal.Skeleton
import proofs.«121449_j80504866996302_1_alg».proof.Proof.Cell
import proofs.«121449_j80504866996302_1_alg».proof.Proof.LibPlainDot
import proofs.«121449_j80504866996302_1_alg».proof.Proof.LibStackSlices

noncomputable section

open scoped BigOperators

namespace Cert.KernelIdeal.CellValue

open Cert.KernelIdeal Cert.KernelIdeal.Gen Idealize.ShloMosaic Idealize.ShloMosaic.ValueIdx Cert.Cell
open Idealize.ShloMosaic.StackSlices

/-- The kernel's two matrix-product records are the plain row-by-column ones. -/
theorem dotW_eq : dot_S800x256_S256x256_S800x256_1_0_0_1_n_n = DotDims.plain 800 256 256 := rfl
theorem dotCls_eq : dot_S800x256_S256x1_S800x1_1_0_0_1_n_n = DotDims.plain 800 256 1 := rfl

/-- A block of rows against member o of the input-weight stack: the sum over the features. -/
theorem dotW_apply (o : Nat) (ho : o < 4) (x : FVec Ideal S800x256 .bf16) (W : FVec Ideal S4x256x256 .bf16)
    (hs : S4x256x256.Slices ![o, 0, 0] S1x256x256) (y : Fin 800) (q : Fin 256) :
    matmul dot_S800x256_S256x256_S800x256_1_0_0_1_n_n none x
        (shapeCast S256x256 (extractStridedSlice S1x256x256 ![o, 0, 0] W hs) shapeCasts_S1x256x256_S256x256)
        (constant S800x256 .f32 0x00000000#32) (ix2 y q)
      = ∑ k : Fin 256, x (ix2 y k) * W (ix3 (⟨o, ho⟩ : Fin 4) k q) := by
  show FloatOps.matmul _ _ _ _ _ _ = _
  rw [dotW_eq, PlainDot.matmul_zero_apply]
  exact Finset.sum_congr rfl fun k _ => by rw [stack3_apply o ho]

/-- A block of rows against member (o, j) of the Chebyshev-weight stack: the sum over the features. -/
theorem dotθ_apply (o j : Nat) (ho : o < 4) (hj : j < 3) (x : FVec Ideal S800x256 .bf16) (θ : FVec Ideal S4x3x256x256 .bf16)
    (hs : S4x3x256x256.Slices ![o, j, 0, 0] S1x1x256x256) (y : Fin 800) (q : Fin 256) :
    matmul dot_S800x256_S256x256_S800x256_1_0_0_1_n_n none x
        (shapeCast S256x256 (extractStridedSlice S1x1x256x256 ![o, j, 0, 0] θ hs) shapeCasts_S1x1x256x256_S256x256)
        (constant S800x256 .f32 0x00000000#32) (ix2 y q)
      = ∑ k : Fin 256, x (ix2 y k) * θ (ix4 (⟨o, ho⟩ : Fin 4) (⟨j, hj⟩ : Fin 3) k q) := by
  show FloatOps.matmul _ _ _ _ _ _ = _
  rw [dotW_eq, PlainDot.matmul_zero_apply]
  exact Finset.sum_congr rfl fun k _ => by rw [stack4_apply o j ho hj]

variable (x0 x1 x2 x3 : Vec Ideal S800x256 .bf16) (x4 : Vec Ideal S800x256 .f32) (x5 : Vec Ideal S4x256x256 .bf16)
  (x6 : Vec Ideal S4x3x256x256 .bf16) (x7 x8 : Vec Ideal S4x256 .f32) (x9 : Vec Ideal S3x256 .f32)

/-- The weights as the kernel's buffers hold them. -/
abbrev P : Params := ⟨x5, x6, x7, x8, x9⟩

theorem pay11_apply (y : Fin 800) (q : Fin 256) :
    k0_pay11 x0 x5 (ix2 y q) = ∑ k : Fin 256, x0 (ix2 y k) * x5 (ix3 (0 : Fin 4) k q) := by
  unfold k0_pay11 k0_pay7 k0_pay3
  try dsimp only
  rw [shapeCast_self, shapeCast_self]
  exact dotW_apply 0 (by decide) x0 x5 _ y q

theorem pay12_apply (y : Fin 800) (q : Fin 256) :
    k0_pay12 x1 x6 (ix2 y q) = ∑ k : Fin 256, x1 (ix2 y k) * x6 (ix4 (0 : Fin 4) (0 : Fin 3) k q) := by
  unfold k0_pay12 k0_pay8 k0_pay4
  try dsimp only
  rw [shapeCast_self, shapeCast_self]
  exact dotθ_apply 0 0 (by decide) (by decide) x1 x6 _ y q

theorem pay13_apply (y : Fin 800) (q : Fin 256) :
    k0_pay13 x2 x6 (ix2 y q) = ∑ k : Fin 256, x2 (ix2 y k) * x6 (ix4 (0 : Fin 4) (1 : Fin 3) k q) := by
  unfold k0_pay13 k0_pay8 k0_pay5
  try dsimp only
  rw [shapeCast_self, shapeCast_self]
  exact dotθ_apply 0 1 (by decide) (by decide) x2 x6 _ y q

/-- The input gate, from the three products the body computed first. -/
theorem pay14_apply (y : Fin 800) (q : Fin 256) :
    k0_pay14 (k0_pay6 x3) x4 (k0_pay8 x6) x7 x8 x9 (k0_pay11 x0 x5) (k0_pay12 x1 x6) (k0_pay13 x2 x6) (ix2 y q)
      = gateIn (P x5 x6 x7 x8 x9) (row x0 y) (row x1 y) (row x2 y) (row x3 y) (x4 (ix2 y q)) q := by
  unfold k0_pay14 k0_pay6 k0_pay8
  try dsimp only
  rw [shapeCast_self, shapeCast_self]
  simp only [addf, mulf, logistic]
  rw [pay11_apply, pay12_apply, pay13_apply, dotθ_apply 0 2 (by decide) (by decide),
    sliceRow_apply 0 (by decide : 0 < 4) x7, sliceRow_apply 0 (by decide : 0 < 3) x9, sliceRow_apply 0 (by decide : 0 < 4) x8]
  rfl

/-- The forget gate. -/
theorem pay15_apply (y : Fin 800) (q : Fin 256) :
    k0_pay15 (k0_pay3 x0) (k0_pay4 x1) (k0_pay5 x2) (k0_pay6 x3) x4 (k0_pay7 x5) (k0_pay8 x6) x7 x8 x9 (ix2 y q)
      = gateForget (P x5 x6 x7 x8 x9) (row x0 y) (row x1 y) (row x2 y) (row x3 y) (x4 (ix2 y q)) q := by
  unfold k0_pay15 k0_pay3 k0_pay4 k0_pay5 k0_pay6 k0_pay7 k0_pay8
  try dsimp only
  simp only [shapeCast_self]
  simp only [addf, mulf, logistic]
  rw [dotW_apply 1 (by decide), dotθ_apply 1 0 (by decide) (by decide), dotθ_apply 1 1 (by decide) (by decide),
    dotθ_apply 1 2 (by decide) (by decide),
    sliceRow_apply 1 (by decide : 1 < 4) x7, sliceRow_apply 1 (by decide : 1 < 3) x9, sliceRow_apply 1 (by decide : 1 < 4) x8]
  rfl

/-- The new cell state, from the two gates. -/
theorem pay16_apply (y : Fin 800) (q : Fin 256) :
    k0_pay16 (k0_pay3 x0) (k0_pay4 x1) (k0_pay5 x2) (k0_pay6 x3) x4 (k0_pay7 x5) (k0_pay8 x6) x7 x8
        (k0_pay14 (k0_pay6 x3) x4 (k0_pay8 x6) x7 x8 x9 (k0_pay11 x0 x5) (k0_pay12 x1 x6) (k0_pay13 x2 x6))
        (k0_pay15 (k0_pay3 x0) (k0_pay4 x1) (k0_pay5 x2) (k0_pay6 x3) x4 (k0_pay7 x5) (k0_pay8 x6) x7 x8 x9) (ix2 y q)
      = cNew (P x5 x6 x7 x8 x9) (row x0 y) (row x1 y) (row x2 y) (row x3 y) (x4 (ix2 y q)) q := by
  unfold k0_pay16
  try dsimp only
  simp only [addf, mulf, tanh]
  rw [pay14_apply, pay15_apply]
  unfold k0_pay3 k0_pay4 k0_pay5 k0_pay6 k0_pay7 k0_pay8
  simp only [shapeCast_self]
  rw [dotW_apply 2 (by decide), dotθ_apply 2 0 (by decide) (by decide), dotθ_apply 2 1 (by decide) (by decide),
    dotθ_apply 2 2 (by decide) (by decide),
    sliceRow_apply 2 (by decide : 2 < 4) x7, sliceRow_apply 2 (by decide : 2 < 4) x8]
  rfl

/-- The output gate's pre-activation. -/
theorem pay17_apply (y : Fin 800) (q : Fin 256) :
    k0_pay17 (k0_pay3 x0) (k0_pay4 x1) (k0_pay5 x2) (k0_pay6 x3) (k0_pay7 x5) (k0_pay8 x6) x7 (ix2 y q)
      = pre (P x5 x6 x7 x8 x9) 3 (row x0 y) (row x1 y) (row x2 y) (row x3 y) q := by
  unfold k0_pay17 k0_pay3 k0_pay4 k0_pay5 k0_pay6 k0_pay7 k0_pay8
  try dsimp only
  simp only [shapeCast_self]
  simp only [addf]
  rw [dotW_apply 3 (by decide), dotθ_apply 3 0 (by decide) (by decide), dotθ_apply 3 1 (by decide) (by decide),
    dotθ_apply 3 2 (by decide) (by decide), sliceRow_apply 3 (by decide : 3 < 4) x7]
  rfl

/-- The new hidden state. -/
theorem pay1_apply (y : Fin 800) (q : Fin 256) :
    k0_pay1 x8
        (k0_pay16 (k0_pay3 x0) (k0_pay4 x1) (k0_pay5 x2) (k0_pay6 x3) x4 (k0_pay7 x5) (k0_pay8 x6) x7 x8
          (k0_pay14 (k0_pay6 x3) x4 (k0_pay8 x6) x7 x8 x9 (k0_pay11 x0 x5) (k0_pay12 x1 x6) (k0_pay13 x2 x6))
          (k0_pay15 (k0_pay3 x0) (k0_pay4 x1) (k0_pay5 x2) (k0_pay6 x3) x4 (k0_pay7 x5) (k0_pay8 x6) x7 x8 x9))
        (k0_pay17 (k0_pay3 x0) (k0_pay4 x1) (k0_pay5 x2) (k0_pay6 x3) (k0_pay7 x5) (k0_pay8 x6) x7) (k0_pay18 x9) (ix2 y q)
      = hNew (P x5 x6 x7 x8 x9) (row x0 y) (row x1 y) (row x2 y) (row x3 y) (x4 (ix2 y q)) q := by
  unfold k0_pay1 k0_pay18
  try dsimp only
  simp only [addf, mulf, logistic, tanh]
  rw [pay16_apply, pay17_apply x0 x1 x2 x3 x5 x6 x7 x8 x9, sliceRow_apply 2 (by decide : 2 < 3) x9,
    sliceRow_apply 3 (by decide : 3 < 4) x8]
  rfl

/-- The scores: the rectified new hidden rows against the classifier column, plus its bias. -/
theorem pay2_apply (x10 : Vec Ideal S256x1 .bf16) (x11 : Vec Ideal S1x1 .f32) (y : Fin 800) (u : Fin 1) :
    k0_pay2 x8 (k0_pay9 x10) (k0_pay10 x11)
        (k0_pay16 (k0_pay3 x0) (k0_pay4 x1) (k0_pay5 x2) (k0_pay6 x3) x4 (k0_pay7 x5) (k0_pay8 x6) x7 x8
          (k0_pay14 (k0_pay6 x3) x4 (k0_pay8 x6) x7 x8 x9 (k0_pay11 x0 x5) (k0_pay12 x1 x6) (k0_pay13 x2 x6))
          (k0_pay15 (k0_pay3 x0) (k0_pay4 x1) (k0_pay5 x2) (k0_pay6 x3) x4 (k0_pay7 x5) (k0_pay8 x6) x7 x8 x9))
        (k0_pay17 (k0_pay3 x0) (k0_pay4 x1) (k0_pay5 x2) (k0_pay6 x3) (k0_pay7 x5) (k0_pay8 x6) x7) (k0_pay18 x9) (ix2 y u)
      = score (P x5 x6 x7 x8 x9) (row x0 y) (row x1 y) (row x2 y) (row x3 y) (row x4 y) x10 (x11 (ix2 (0 : Fin 1) (0 : Fin 1))) := by
  unfold k0_pay2 k0_pay9 k0_pay10
  try dsimp only
  simp only [shapeCast_self]
  simp only [addf]
  rw [oneCell_apply]
  show FloatOps.addf (FloatOps.matmul _ _ _ _ _ _) _ = _
  rw [dotCls_eq, PlainDot.matmul_zero_apply]
  have hu : u = 0 := Fin.ext (by omega)
  subst hu
  refine congrArg (· + _) (Finset.sum_congr rfl fun k _ => ?_)
  simp only [truncf, maximumf, broadcast]
  rw [pay1_apply]
  rfl

end Cert.KernelIdeal.CellValue

end
-- ==== Proof.KernelBlocks.lean ====
/-
  From the kernel's blocks to its three result arrays.

  The kernel walks the 20000 nodes in 25 blocks of 800 rows. At block t it reads rows 800·t … 800·t + 799 of the node
  arrays (x, the three propagated arrays, the cell state) and the whole of every weight array, and writes the same rows of
  the three results. Since the cell of Proof/Cell.lean at node r depends on row r of each node array only, what block t
  writes back is rows 800·t … of the cell taken over the WHOLE arrays; the 25 blocks cover every node (node r lies in
  block r / 800), so after the run each result array is that whole-array function of the arrays the region was entered with.
-/
import proofs.«121449_j80504866996302_1_alg».proof.Proof.Gen.KernelIdeal.Value
import proofs.«121449_j80504866996302_1_alg».proof.Proof.KernelCell

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx Cert.Cell Cert.KernelIdeal.CellValue
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## What the body leaves in each result block, over arbitrary loaded blocks -/

theorem out12_apply (x0 x1 x2 x3 : Vec Ideal S800x256 .bf16) (x4 : Vec Ideal S800x256 .f32) (x5 : Vec Ideal S4x256x256 .bf16)
    (x6 : Vec Ideal S4x3x256x256 .bf16) (x7 x8 : Vec Ideal S4x256 .f32) (x9 : Vec Ideal S3x256 .f32) (x10 : Vec Ideal S256x1 .bf16)
    (x11 : Vec Ideal S1x1 .f32) (y : Fin 800) (q : Fin 256) :
    out0_12 x0 x1 x2 x3 x4 x5 x6 x7 x8 x9 x10 x11 (ix2 y q)
      = hNew (P x5 x6 x7 x8 x9) (row x0 y) (row x1 y) (row x2 y) (row x3 y) (x4 (ix2 y q)) q := by
  unfold out0_12
  rw [View.canon_unit_zero hz2]
  simp only [View.ld_unit_zero (S := S800x256) hz2, View.ld_unit_zero (S := S4x256x256) hz3, View.ld_unit_zero (S := S4x3x256x256) hz4,
    View.ld_unit_zero (S := S4x256) hz2, View.ld_unit_zero (S := S3x256) hz2, View.ld_unit_zero (S := S256x1) hz2, View.ld_unit_zero (S := S1x1) hz2]
  exact pay1_apply x0 x1 x2 x3 x4 x5 x6 x7 x8 x9 y q

theorem out13_apply (x0 x1 x2 x3 : Vec Ideal S800x256 .bf16) (x4 : Vec Ideal S800x256 .f32) (x5 : Vec Ideal S4x256x256 .bf16)
    (x6 : Vec Ideal S4x3x256x256 .bf16) (x7 x8 : Vec Ideal S4x256 .f32) (x9 : Vec Ideal S3x256 .f32) (x10 : Vec Ideal S256x1 .bf16)
    (x11 : Vec Ideal S1x1 .f32) (y : Fin 800) (q : Fin 256) :
    out0_13 x0 x1 x2 x3 x4 x5 x6 x7 x8 x9 x10 x11 (ix2 y q)
      = cNew (P x5 x6 x7 x8 x9) (row x0 y) (row x1 y) (row x2 y) (row x3 y) (x4 (ix2 y q)) q := by
  unfold out0_13
  rw [View.canon_unit_zero hz2]
  simp only [View.ld_unit_zero (S := S800x256) hz2, View.ld_unit_zero (S := S4x256x256) hz3, View.ld_unit_zero (S := S4x3x256x256) hz4,
    View.ld_unit_zero (S := S4x256) hz2, View.ld_unit_zero (S := S3x256) hz2, View.ld_unit_zero (S := S256x1) hz2, View.ld_unit_zero (S := S1x1) hz2]
  exact pay16_apply x0 x1 x2 x3 x4 x5 x6 x7 x8 x9 y q

theorem out14_apply (x0 x1 x2 x3 : Vec Ideal S800x256 .bf16) (x4 : Vec Ideal S800x256 .f32) (x5 : Vec Ideal S4x256x256 .bf16)
    (x6 : Vec Ideal S4x3x256x256 .bf16) (x7 x8 : Vec Ideal S4x256 .f32) (x9 : Vec Ideal S3x256 .f32) (x10 : Vec Ideal S256x1 .bf16)
    (x11 : Vec Ideal S1x1 .f32) (y : Fin 800) (u : Fin 1) :
    out0_14 x0 x1 x2 x3 x4 x5 x6 x7 x8 x9 x10 x11 (ix2 y u)
      = score (P x5 x6 x7 x8 x9) (row x0 y) (row x1 y) (row x2 y) (row x3 y) (row x4 y) x10 (x11 (ix2 (0 : Fin 1) (0 : Fin 1))) := by
  unfold out0_14
  rw [View.canon_unit_zero hz2]
  simp only [View.ld_unit_zero (S := S800x256) hz2, View.ld_unit_zero (S := S4x256x256) hz3, View.ld_unit_zero (S := S4x3x256x256) hz4,
    View.ld_unit_zero (S := S4x256) hz2, View.ld_unit_zero (S := S3x256) hz2, View.ld_unit_zero (S := S256x1) hz2, View.ld_unit_zero (S := S1x1) hz2]
  exact pay2_apply x0 x1 x2 x3 x4 x5 x6 x7 x8 x9 x10 x11 y u

/-! ## The windows' index maps, decided once over the 25 grid points -/

/-- A node array's window is at block (t, 0) at point t; a weight array's window is at block 0 at every point. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_12.index t (0 : Fin 2) = t.val
    ∧ win0_12.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_5.index t (0 : Fin 3) = 0
    ∧ win0_5.index t (1 : Fin 3) = 0
    ∧ win0_5.index t (2 : Fin 3) = 0
    ∧ win0_6.index t (0 : Fin 4) = 0
    ∧ win0_6.index t (1 : Fin 4) = 0
    ∧ win0_6.index t (2 : Fin 4) = 0
    ∧ win0_6.index t (3 : Fin 4) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

variable (m : (ℓ : Loc nD τ sig) → Buf (Elt Ideal) ℓ) (ρ : Dev nD → PrngReg)

/-- The node that row y of block t is. -/
def node (t : Fin cfg0.N) (y : Fin 800) : Fin 20000 :=
  ⟨t.val * 800 + y.val, by have ht : t.val < 25 := t.isLt; have hy := y.isLt; omega⟩

/-! ## Each window's block, read off the array the region finds -/

theorem emb0 (t : Fin cfg0.N) (y : Fin 800) (k : Fin 256) :
    ((cfg0.win 0).blk t).view.emb (ix2 y k) = ix2 (node t y) k := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_0.index t (0 : Fin 2) * 800 + 1 * y.val = t.val * 800 + y.val; omega
  | ⟨1, _⟩ => show win0_0.index t (1 : Fin 2) * 256 + 1 * k.val = k.val; omega

theorem blk0 (c : Dev nD) (t : Fin cfg0.N) (y : Fin 800) (k : Fin 256) :
    iblk m c 0 t (ix2 y k) = V m c main_v59 (ix2 (node t y) k) := by
  show V m c main_v59 (((cfg0.win 0).blk t).view.emb (ix2 y k)) = _
  rw [emb0 t y k]

theorem emb1 (t : Fin cfg0.N) (y : Fin 800) (k : Fin 256) :
    ((cfg0.win 1).blk t).view.emb (ix2 y k) = ix2 (node t y) k := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_1.index t (0 : Fin 2) * 800 + 1 * y.val = t.val * 800 + y.val; omega
  | ⟨1, _⟩ => show win0_1.index t (1 : Fin 2) * 256 + 1 * k.val = k.val; omega

theorem blk1 (c : Dev nD) (t : Fin cfg0.N) (y : Fin 800) (k : Fin 256) :
    iblk m c 1 t (ix2 y k) = V m c main_v60 (ix2 (node t y) k) := by
  show V m c main_v60 (((cfg0.win 1).blk t).view.emb (ix2 y k)) = _
  rw [emb1 t y k]

theorem emb2 (t : Fin cfg0.N) (y : Fin 800) (k : Fin 256) :
    ((cfg0.win 2).blk t).view.emb (ix2 y k) = ix2 (node t y) k := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_2.index t (0 : Fin 2) * 800 + 1 * y.val = t.val * 800 + y.val; omega
  | ⟨1, _⟩ => show win0_2.index t (1 : Fin 2) * 256 + 1 * k.val = k.val; omega

theorem blk2 (c : Dev nD) (t : Fin cfg0.N) (y : Fin 800) (k : Fin 256) :
    iblk m c 2 t (ix2 y k) = V m c main_v61 (ix2 (node t y) k) := by
  show V m c main_v61 (((cfg0.win 2).blk t).view.emb (ix2 y k)) = _
  rw [emb2 t y k]

theorem emb3 (t : Fin cfg0.N) (y : Fin 800) (k : Fin 256) :
    ((cfg0.win 3).blk t).view.emb (ix2 y k) = ix2 (node t y) k := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_3.index t (0 : Fin 2) * 800 + 1 * y.val = t.val * 800 + y.val; omega
  | ⟨1, _⟩ => show win0_3.index t (1 : Fin 2) * 256 + 1 * k.val = k.val; omega

theorem blk3 (c : Dev nD) (t : Fin cfg0.N) (y : Fin 800) (k : Fin 256) :
    iblk m c 3 t (ix2 y k) = V m c main_v62 (ix2 (node t y) k) := by
  show V m c main_v62 (((cfg0.win 3).blk t).view.emb (ix2 y k)) = _
  rw [emb3 t y k]

theorem emb4 (t : Fin cfg0.N) (y : Fin 800) (k : Fin 256) :
    ((cfg0.win 4).blk t).view.emb (ix2 y k) = ix2 (node t y) k := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_4.index t (0 : Fin 2) * 800 + 1 * y.val = t.val * 800 + y.val; omega
  | ⟨1, _⟩ => show win0_4.index t (1 : Fin 2) * 256 + 1 * k.val = k.val; omega

theorem blk4 (c : Dev nD) (t : Fin cfg0.N) (y : Fin 800) (k : Fin 256) :
    iblk m c 4 t (ix2 y k) = V m c main_arg4 (ix2 (node t y) k) := by
  show V m c main_arg4 (((cfg0.win 4).blk t).view.emb (ix2 y k)) = _
  rw [emb4 t y k]

theorem embW5 (t : Fin cfg0.N) (j : S4x256x256.Idx) : ((cfg0.win 5).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_5.index t (0 : Fin 3) * 4 + 1 * (j 0).val = (j 0).val; omega
  | ⟨1, _⟩ => show win0_5.index t (1 : Fin 3) * 256 + 1 * (j 1).val = (j 1).val; omega
  | ⟨2, _⟩ => show win0_5.index t (2 : Fin 3) * 256 + 1 * (j 2).val = (j 2).val; omega

theorem blk5 (c : Dev nD) (t : Fin cfg0.N) (j : S4x256x256.Idx) : iblk m c 5 t j = V m c main_v63 j := by
  show V m c main_v63 (((cfg0.win 5).blk t).view.emb j) = _
  rw [embW5 t j]

theorem embW6 (t : Fin cfg0.N) (j : S4x3x256x256.Idx) : ((cfg0.win 6).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_6.index t (0 : Fin 4) * 4 + 1 * (j 0).val = (j 0).val; omega
  | ⟨1, _⟩ => show win0_6.index t (1 : Fin 4) * 3 + 1 * (j 1).val = (j 1).val; omega
  | ⟨2, _⟩ => show win0_6.index t (2 : Fin 4) * 256 + 1 * (j 2).val = (j 2).val; omega
  | ⟨3, _⟩ => show win0_6.index t (3 : Fin 4) * 256 + 1 * (j 3).val = (j 3).val; omega

theorem blk6 (c : Dev nD) (t : Fin cfg0.N) (j : S4x3x256x256.Idx) : iblk m c 6 t j = V m c main_v64 j := by
  show V m c main_v64 (((cfg0.win 6).blk t).view.emb j) = _
  rw [embW6 t j]

theorem embW7 (t : Fin cfg0.N) (j : S4x256.Idx) : ((cfg0.win 7).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_7.index t (0 : Fin 2) * 4 + 1 * (j 0).val = (j 0).val; omega
  | ⟨1, _⟩ => show win0_7.index t (1 : Fin 2) * 256 + 1 * (j 1).val = (j 1).val; omega

theorem blk7 (c : Dev nD) (t : Fin cfg0.N) (j : S4x256.Idx) : iblk m c 7 t j = V m c main_arg7 j := by
  show V m c main_arg7 (((cfg0.win 7).blk t).view.emb j) = _
  rw [embW7 t j]

theorem embW8 (t : Fin cfg0.N) (j : S4x256.Idx) : ((cfg0.win 8).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_8.index t (0 : Fin 2) * 4 + 1 * (j 0).val = (j 0).val; omega
  | ⟨1, _⟩ => show win0_8.index t (1 : Fin 2) * 256 + 1 * (j 1).val = (j 1).val; omega

theorem blk8 (c : Dev nD) (t : Fin cfg0.N) (j : S4x256.Idx) : iblk m c 8 t j = V m c main_arg8 j := by
  show V m c main_arg8 (((cfg0.win 8).blk t).view.emb j) = _
  rw [embW8 t j]

theorem embW9 (t : Fin cfg0.N) (j : S3x256.Idx) : ((cfg0.win 9).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_9.index t (0 : Fin 2) * 3 + 1 * (j 0).val = (j 0).val; omega
  | ⟨1, _⟩ => show win0_9.index t (1 : Fin 2) * 256 + 1 * (j 1).val = (j 1).val; omega

theorem blk9 (c : Dev nD) (t : Fin cfg0.N) (j : S3x256.Idx) : iblk m c 9 t j = V m c main_arg9 j := by
  show V m c main_arg9 (((cfg0.win 9).blk t).view.emb j) = _
  rw [embW9 t j]

theorem embW10 (t : Fin cfg0.N) (j : S256x1.Idx) : ((cfg0.win 10).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_10.index t (0 : Fin 2) * 256 + 1 * (j 0).val = (j 0).val; omega
  | ⟨1, _⟩ => show win0_10.index t (1 : Fin 2) * 1 + 1 * (j 1).val = (j 1).val; omega

theorem blk10 (c : Dev nD) (t : Fin cfg0.N) (j : S256x1.Idx) : iblk m c 10 t j = V m c main_v65 j := by
  show V m c main_v65 (((cfg0.win 10).blk t).view.emb j) = _
  rw [embW10 t j]

theorem embW11 (t : Fin cfg0.N) (j : S1x1.Idx) : ((cfg0.win 11).blk t).view.emb j = j := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_11.index t (0 : Fin 2) * 1 + 1 * (j 0).val = (j 0).val; omega
  | ⟨1, _⟩ => show win0_11.index t (1 : Fin 2) * 1 + 1 * (j 1).val = (j 1).val; omega

theorem blk11 (c : Dev nD) (t : Fin cfg0.N) (j : S1x1.Idx) : iblk m c 11 t j = V m c main_v66 j := by
  show V m c main_v66 (((cfg0.win 11).blk t).view.emb j) = _
  rw [embW11 t j]

/-! ## The three result arrays as functions of the arrays the region finds -/

/-- The weights as the region finds them. -/
abbrev PK (c : Dev nD) : Params := ⟨V m c main_v63, V m c main_v64, V m c main_arg7, V m c main_arg8, V m c main_arg9⟩

/-- The new hidden states of all nodes. -/
def HK (c : Dev nD) : S20000x256.Idx → EReal :=
  H (PK m c) (V m c main_v59) (V m c main_v60) (V m c main_v61) (V m c main_v62) (V m c main_arg4)

/-- The new cell states of all nodes. -/
def CK (c : Dev nD) : S20000x256.Idx → EReal :=
  Cn (PK m c) (V m c main_v59) (V m c main_v60) (V m c main_v61) (V m c main_v62) (V m c main_arg4)

/-- The scores of all nodes. -/
def OK (c : Dev nD) : S20000x1.Idx → EReal :=
  Out (PK m c) (V m c main_v59) (V m c main_v60) (V m c main_v61) (V m c main_v62) (V m c main_arg4) (V m c main_v65)
    (V m c main_v66 (ix2 (0 : Fin 1) (0 : Fin 1)))

/-- The weights' blocks are the whole weight arrays. -/
theorem params_blk (c : Dev nD) (t : Fin cfg0.N) :
    P (iblk m c 5 t) (iblk m c 6 t) (iblk m c 7 t) (iblk m c 8 t) (iblk m c 9 t) = PK m c := by
  have e5 : (iblk m c 5 t : S4x256x256.Idx → EReal) = V m c main_v63 := funext (blk5 m c t)
  have e6 : (iblk m c 6 t : S4x3x256x256.Idx → EReal) = V m c main_v64 := funext (blk6 m c t)
  have e7 : (iblk m c 7 t : S4x256.Idx → EReal) = V m c main_arg7 := funext (blk7 m c t)
  have e8 : (iblk m c 8 t : S4x256.Idx → EReal) = V m c main_arg8 := funext (blk8 m c t)
  have e9 : (iblk m c 9 t : S3x256.Idx → EReal) = V m c main_arg9 := funext (blk9 m c t)
  show Params.mk _ _ _ _ _ = Params.mk _ _ _ _ _
  rw [e5, e6, e7, e8, e9]

/-- Row y of a node array's block t is row (node t y) of the array. -/
theorem row_blk0 (c : Dev nD) (t : Fin cfg0.N) (y : Fin 800) : row (iblk m c 0 t) y = row (V m c main_v59) (node t y) :=
  funext fun k => blk0 m c t y k
theorem row_blk1 (c : Dev nD) (t : Fin cfg0.N) (y : Fin 800) : row (iblk m c 1 t) y = row (V m c main_v60) (node t y) :=
  funext fun k => blk1 m c t y k
theorem row_blk2 (c : Dev nD) (t : Fin cfg0.N) (y : Fin 800) : row (iblk m c 2 t) y = row (V m c main_v61) (node t y) :=
  funext fun k => blk2 m c t y k
theorem row_blk3 (c : Dev nD) (t : Fin cfg0.N) (y : Fin 800) : row (iblk m c 3 t) y = row (V m c main_v62) (node t y) :=
  funext fun k => blk3 m c t y k
theorem row_blk4 (c : Dev nD) (t : Fin cfg0.N) (y : Fin 800) : row (iblk m c 4 t) y = row (V m c main_arg4) (node t y) :=
  funext fun k => blk4 m c t y k

/-! ## What point t writes back is block t of the whole-array function -/

theorem emb12 (t : Fin cfg0.N) (y : Fin 800) (q : Fin 256) :
    ((cfg0.win 12).blk t).view.emb (ix2 y q) = ix2 (node t y) q := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_12.index t (0 : Fin 2) * 800 + 1 * y.val = t.val * 800 + y.val; omega
  | ⟨1, _⟩ => show win0_12.index t (1 : Fin 2) * 256 + 1 * q.val = q.val; omega

theorem emb13 (t : Fin cfg0.N) (y : Fin 800) (q : Fin 256) :
    ((cfg0.win 13).blk t).view.emb (ix2 y q) = ix2 (node t y) q := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_13.index t (0 : Fin 2) * 800 + 1 * y.val = t.val * 800 + y.val; omega
  | ⟨1, _⟩ => show win0_13.index t (1 : Fin 2) * 256 + 1 * q.val = q.val; omega

theorem emb14 (t : Fin cfg0.N) (y : Fin 800) (u : Fin 1) :
    ((cfg0.win 14).blk t).view.emb (ix2 y u) = ix2 (node t y) u := by
  refine funext fun a => Fin.ext ?_
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  match a with
  | ⟨0, _⟩ => show win0_14.index t (0 : Fin 2) * 800 + 1 * y.val = t.val * 800 + y.val; omega
  | ⟨1, _⟩ => show win0_14.index t (1 : Fin 2) * 1 + 1 * u.val = u.val; omega

theorem flushed12_eq (c : Dev nD) (t : Fin cfg0.N) :
    (dats m 0 c).flushed 12 t = ((cfg0.win 12).blk t).view.read (Elt Ideal) (HK m c) := by
  rw [Value.flushed12]
  refine funext fun (j : S800x256.Idx) => ?_
  obtain ⟨y, q, rfl⟩ : ∃ (y : Fin 800) (q : Fin 256), j = ix2 y q := ⟨j 0, j 1, eq_ix2 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y q) = HK m c (((cfg0.win 12).blk t).view.emb (ix2 y q))
  rw [emb12 t y q]
  refine (out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y q).trans ?_
  unfold HK
  rw [H_apply, params_blk m c t, row_blk0 m c t y, row_blk1 m c t y, row_blk2 m c t y, row_blk3 m c t y, blk4 m c t y q]

theorem flushed13_eq (c : Dev nD) (t : Fin cfg0.N) :
    (dats m 0 c).flushed 13 t = ((cfg0.win 13).blk t).view.read (Elt Ideal) (CK m c) := by
  rw [Value.flushed13]
  refine funext fun (j : S800x256.Idx) => ?_
  obtain ⟨y, q, rfl⟩ : ∃ (y : Fin 800) (q : Fin 256), j = ix2 y q := ⟨j 0, j 1, eq_ix2 j⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y q) = CK m c (((cfg0.win 13).blk t).view.emb (ix2 y q))
  rw [emb13 t y q]
  refine (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y q).trans ?_
  unfold CK
  rw [Cn_apply, params_blk m c t, row_blk0 m c t y, row_blk1 m c t y, row_blk2 m c t y, row_blk3 m c t y, blk4 m c t y q]

theorem flushed14_eq (c : Dev nD) (t : Fin cfg0.N) :
    (dats m 0 c).flushed 14 t = ((cfg0.win 14).blk t).view.read (Elt Ideal) (OK m c) := by
  rw [Value.flushed14]
  refine funext fun (j : S800x1.Idx) => ?_
  obtain ⟨y, u, rfl⟩ : ∃ (y : Fin 800) (u : Fin 1), j = ix2 y u := ⟨j 0, j 1, eq_ix2 j⟩
  show out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 y u) = OK m c (((cfg0.win 14).blk t).view.emb (ix2 y u))
  rw [emb14 t y u]
  refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y u).trans ?_
  have e10 : (iblk m c 10 t : S256x1.Idx → EReal) = V m c main_v65 := funext (blk10 m c t)
  unfold OK
  rw [Out_apply, params_blk m c t, row_blk0 m c t y, row_blk1 m c t y, row_blk2 m c t y, row_blk3 m c t y, row_blk4 m c t y,
    e10, blk11 m c t]

/-! ## The blocks cover every node -/

theorem mem_blk12 (t : Fin cfg0.N) (i : S20000x256.Idx) :
    i ∈ ((cfg0.win 12).blk t).view.set ↔ ∀ a : Fin 2, win0_12.index t a * S800x256.size a ≤ (i a).val ∧ (i a).val < win0_12.index t a * S800x256.size a + S800x256.size a := by
  show i ∈ ((View.whole main_v67_0).slice (win0_12.rect t)).set ↔ _
  rw [View.set_slice_whole, Rect.mem_set_unit]
  exact Iff.rfl

theorem mem_blk13 (t : Fin cfg0.N) (i : S20000x256.Idx) :
    i ∈ ((cfg0.win 13).blk t).view.set ↔ ∀ a : Fin 2, win0_13.index t a * S800x256.size a ≤ (i a).val ∧ (i a).val < win0_13.index t a * S800x256.size a + S800x256.size a := by
  show i ∈ ((View.whole main_v67_1).slice (win0_13.rect t)).set ↔ _
  rw [View.set_slice_whole, Rect.mem_set_unit]
  exact Iff.rfl

theorem mem_blk14 (t : Fin cfg0.N) (i : S20000x1.Idx) :
    i ∈ ((cfg0.win 14).blk t).view.set ↔ ∀ a : Fin 2, win0_14.index t a * S800x1.size a ≤ (i a).val ∧ (i a).val < win0_14.index t a * S800x1.size a + S800x1.size a := by
  show i ∈ ((View.whole main_v67_2).slice (win0_14.rect t)).set ↔ _
  rw [View.set_slice_whole, Rect.mem_set_unit]
  exact Iff.rfl

/-- The block of node r is r / 800. -/
def blockOf (r : Nat) (hr : r < 20000) : Fin cfg0.N := ⟨r / 800, by show r / 800 < 25; omega⟩

theorem cover12 (i : S20000x256.Idx) :
    ∃ t : Fin cfg0.N, (cfg0.win 12).flush t = true ∧ i ∈ ((cfg0.win 12).blk t).view.set := by
  have hi0 : (i 0).val < 20000 := (i 0).isLt
  have hi1 : (i 1).val < 256 := (i 1).isLt
  have ht : (blockOf (i 0).val hi0).val = (i 0).val / 800 := rfl
  generalize blockOf (i 0).val hi0 = t at ht
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  refine ⟨t, flush0_12 t, ?_⟩
  rw [mem_blk12]
  intro a
  match a with
  | ⟨0, _⟩ => show win0_12.index t (0 : Fin 2) * 800 ≤ (i 0).val ∧ (i 0).val < win0_12.index t (0 : Fin 2) * 800 + 800; omega
  | ⟨1, _⟩ => show win0_12.index t (1 : Fin 2) * 256 ≤ (i 1).val ∧ (i 1).val < win0_12.index t (1 : Fin 2) * 256 + 256; omega

theorem cover13 (i : S20000x256.Idx) :
    ∃ t : Fin cfg0.N, (cfg0.win 13).flush t = true ∧ i ∈ ((cfg0.win 13).blk t).view.set := by
  have hi0 : (i 0).val < 20000 := (i 0).isLt
  have hi1 : (i 1).val < 256 := (i 1).isLt
  have ht : (blockOf (i 0).val hi0).val = (i 0).val / 800 := rfl
  generalize blockOf (i 0).val hi0 = t at ht
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  refine ⟨t, flush0_13 t, ?_⟩
  rw [mem_blk13]
  intro a
  match a with
  | ⟨0, _⟩ => show win0_13.index t (0 : Fin 2) * 800 ≤ (i 0).val ∧ (i 0).val < win0_13.index t (0 : Fin 2) * 800 + 800; omega
  | ⟨1, _⟩ => show win0_13.index t (1 : Fin 2) * 256 ≤ (i 1).val ∧ (i 1).val < win0_13.index t (1 : Fin 2) * 256 + 256; omega

theorem cover14 (i : S20000x1.Idx) :
    ∃ t : Fin cfg0.N, (cfg0.win 14).flush t = true ∧ i ∈ ((cfg0.win 14).blk t).view.set := by
  have hi0 : (i 0).val < 20000 := (i 0).isLt
  have hi1 : (i 1).val < 1 := (i 1).isLt
  have ht : (blockOf (i 0).val hi0).val = (i 0).val / 800 := rfl
  generalize blockOf (i 0).val hi0 = t at ht
  obtain ⟨i0_0, i0_1, i1_0, i1_1, i2_0, i2_1, i3_0, i3_1, i4_0, i4_1, i12_0, i12_1, i13_0, i13_1, i14_0, i14_1, i5_0, i5_1, i5_2, i6_0, i6_1, i6_2, i6_3, i7_0, i7_1, i8_0, i8_1, i9_0, i9_1, i10_0, i10_1, i11_0, i11_1⟩ := idx_facts t
  refine ⟨t, flush0_14 t, ?_⟩
  rw [mem_blk14]
  intro a
  match a with
  | ⟨0, _⟩ => show win0_14.index t (0 : Fin 2) * 800 ≤ (i 0).val ∧ (i 0).val < win0_14.index t (0 : Fin 2) * 800 + 800; omega
  | ⟨1, _⟩ => show win0_14.index t (1 : Fin 2) * 1 ≤ (i 1).val ∧ (i 1).val < win0_14.index t (1 : Fin 2) * 1 + 1; omega

/-! ## The result arrays after the run -/

theorem final12 (c : Dev nD) : (dats m 0 c).arrAt 12 cfg0.N = HK m c :=
  (dats m 0 c).arrAt_eq_of_cover 12 (HK m c) (fun t _ => flushed12_eq m c t) cover12

theorem final13 (c : Dev nD) : (dats m 0 c).arrAt 13 cfg0.N = CK m c :=
  (dats m 0 c).arrAt_eq_of_cover 13 (CK m c) (fun t _ => flushed13_eq m c t) cover13

theorem final14 (c : Dev nD) : (dats m 0 c).arrAt 14 cfg0.N = OK m c :=
  (dats m 0 c).arrAt_eq_of_cover 14 (OK m c) (fun t _ => flushed14_eq m c t) cover14

/-- The kernel's run: every execution ends with the scores, the new hidden states and the new cell states at the cell of
    the arrays the region was entered with, and the arguments unchanged. -/
theorem run : θ_run defs (onTc (τ := τ) (main (F := Ideal))) ⟨m, fun _ => 0, ρ⟩ fun r => ∀ c : Dev nD,
      r.2.mem ((c : Thread nD τ).loc main_v67_2) = OK m c
      ∧ r.2.mem ((c : Thread nD τ).loc main_v67_0) = HK m c
      ∧ r.2.mem ((c : Thread nD τ).loc main_v67_1) = CK m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).2.2.1.trans (final14 m c), (h c).1.trans (final12 m c),
      (h c).2.1.trans (final13 m c), (h c).2.2.2⟩)
    (Value.run_blocks m ρ)

end Cert.KernelIdeal.Blocks

end
-- ==== Proof.KernelEntry.lean ====
/-
  What the kernel's region finds.

  Before the kernel is launched the program rounds the inputs to the matrix unit's format (the identity on the extended
  reals). So on entry the region finds the arguments themselves as x, h, the weights and the classifier column, and the
  classifier bias reshaped to one cell. (The two propagated arrays are read in Proof/KernelEntryT1.lean and
  Proof/KernelEntryT2.lean.)
-/
import proofs.«121449_j80504866996302_1_alg».proof.Proof.Gen.KernelIdeal.Frame
import Idealize.ShloMosaic.Lib.StableHlo.Run
import Idealize.ShloMosaic.Lib.ValueLayout

noncomputable section

namespace Cert.KernelIdeal.Entry

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

theorem entry_x (c : Dev nD) : (V m c main_v59 : S20000x256.Idx → EReal) = m ((c : Thread nD τ).loc main_arg0) := by
  dsimp only [V]
  simp only [hostOps0, hostOps0_1, hostOps0_2, List.flatten_cons, List.flatten_nil, List.append_nil, List.cons_append, List.nil_append]
  after_results_simp
  rfl

theorem entry_h (c : Dev nD) : (V m c main_v60 : S20000x256.Idx → EReal) = m ((c : Thread nD τ).loc main_arg3) := by
  dsimp only [V]
  simp only [hostOps0, hostOps0_1, hostOps0_2, List.flatten_cons, List.flatten_nil, List.append_nil, List.cons_append, List.nil_append]
  after_results_simp
  rfl

theorem entry_W (c : Dev nD) : (V m c main_v63 : S4x256x256.Idx → EReal) = m ((c : Thread nD τ).loc main_arg5) := by
  dsimp only [V]
  simp only [hostOps0, hostOps0_1, hostOps0_2, List.flatten_cons, List.flatten_nil, List.append_nil, List.cons_append, List.nil_append]
  after_results_simp
  rfl

theorem entry_θ (c : Dev nD) : (V m c main_v64 : S4x3x256x256.Idx → EReal) = m ((c : Thread nD τ).loc main_arg6) := by
  dsimp only [V]
  simp only [hostOps0, hostOps0_1, hostOps0_2, List.flatten_cons, List.flatten_nil, List.append_nil, List.cons_append, List.nil_append]
  after_results_simp
  rfl

theorem entry_wcls (c : Dev nD) : (V m c main_v65 : S256x1.Idx → EReal) = m ((c : Thread nD τ).loc main_arg10) := by
  dsimp only [V]
  simp only [hostOps0, hostOps0_1, hostOps0_2, List.flatten_cons, List.flatten_nil, List.append_nil, List.cons_append, List.nil_append]
  after_results_simp
  rfl

/-- The classifier bias, reshaped to one cell. -/
theorem entry_bcls (c : Dev nD) :
    (V m c main_v66 : S1x1.Idx → EReal) (ix2 (0 : Fin 1) (0 : Fin 1)) = m ((c : Thread nD τ).loc main_arg11) (ix1 (0 : Fin 1)) := by
  have e : (V m c main_v66 : S1x1.Idx → EReal) = shapeCast S1x1 (m ((c : Thread nD τ).loc main_arg11)) shapeCasts_S1_S1x1 := by
    dsimp only [V]
    simp only [hostOps0, hostOps0_1, hostOps0_2, List.flatten_cons, List.flatten_nil, List.append_nil, List.cons_append, List.nil_append]
    after_results_simp
    rfl
  rw [e]
  exact shapeCast_a_1a_apply _ _ 0 0

end Cert.KernelIdeal.Entry

end
-- ==== Proof.KernelEntryT1.lean ====
/-
  The first Chebyshev propagation the kernel's region finds.

  On the host, before the launch, the program gathers the hidden state's rows along the edges' sources, scales them by
  the normalised edge weights and scatter-adds them to the edges' targets, then rounds the result to the matrix unit's
  format (the identity on the extended reals). The reference computes the same array by the same operations of the same
  arguments; the two terms differ only in which program's shape records they name, so they are equal by unfolding the
  reference's stages and comparing.
-/
import proofs.«121449_j80504866996302_1_alg».proof.Proof.Gen.KernelIdeal.Frame
import proofs.«121449_j80504866996302_1_alg».proof.Proof.RefRead
import Idealize.ShloMosaic.Lib.StableHlo.Run

noncomputable section

namespace Cert.KernelIdeal.EntryT1

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Rounding to a narrower float format is the identity on the extended reals. -/
theorem truncf_id {s : Shape} (x : FVec Ideal s .f32) (h : FTy.bf16.bits < FTy.f32.bits) :
    (truncf (F := Ideal) .bf16 x h : s.Idx → EReal) = x := rfl

set_option maxHeartbeats 4000000 in
/-- The first propagation of the hidden state, as the reference's term. -/
theorem entry_t1 (c : Dev nD) : (V m c main_v61 : S20000x256.Idx → EReal)
    = Cert.ReferenceIdeal.ReadP.val_main_v52 (F := Ideal) (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp
  simp only [Cert.ReferenceIdeal.ReadP.val_main_v52, Cert.ReferenceIdeal.ReadP.val_main_v50, Cert.ReferenceIdeal.ReadP.val_main_cst_8, Cert.ReferenceIdeal.ReadP.val_main_v51, Cert.ReferenceIdeal.ReadP.val_main_v3, Cert.ReferenceIdeal.ReadP.val_main_v2, Cert.ReferenceIdeal.ReadP.val_main_v49, Cert.ReferenceIdeal.ReadP.val_main_v48, Cert.ReferenceIdeal.ReadP.val_main_v40, Cert.ReferenceIdeal.ReadP.val_main_v29, Cert.ReferenceIdeal.ReadP.val_main_v21, Cert.ReferenceIdeal.ReadP.val_main_v20, Cert.ReferenceIdeal.ReadP.val_main_v19, Cert.ReferenceIdeal.ReadP.val_main_v12, Cert.ReferenceIdeal.ReadP.val_main_v8, Cert.ReferenceIdeal.ReadP.val_main_v6, Cert.ReferenceIdeal.ReadP.val_main_v4, Cert.ReferenceIdeal.ReadP.val_main_cst, Cert.ReferenceIdeal.ReadP.val_main_v5, Cert.ReferenceIdeal.ReadP.val_main_v1, Cert.ReferenceIdeal.ReadP.val_main_v0, Cert.ReferenceIdeal.ReadP.val_main_v7, Cert.ReferenceIdeal.ReadP.val_main_cst_0, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_call0_v1, Cert.ReferenceIdeal.ReadP.val_main_call0_v0, Cert.ReferenceIdeal.ReadP.val_main_cst_2, Cert.ReferenceIdeal.ReadP.val_main_v18, Cert.ReferenceIdeal.ReadP.val_main_v17, Cert.ReferenceIdeal.ReadP.val_main_v14, Cert.ReferenceIdeal.ReadP.val_main_v13, Cert.ReferenceIdeal.ReadP.val_main_c, Cert.ReferenceIdeal.ReadP.val_main_v16, Cert.ReferenceIdeal.ReadP.val_main_v15, Cert.ReferenceIdeal.ReadP.val_main_c_3, Cert.ReferenceIdeal.ReadP.val_main_v28, Cert.ReferenceIdeal.ReadP.val_main_v27, Cert.ReferenceIdeal.ReadP.val_main_v26, Cert.ReferenceIdeal.ReadP.val_main_v23, Cert.ReferenceIdeal.ReadP.val_main_v22, Cert.ReferenceIdeal.ReadP.val_main_c_4, Cert.ReferenceIdeal.ReadP.val_main_v25, Cert.ReferenceIdeal.ReadP.val_main_v24, Cert.ReferenceIdeal.ReadP.val_main_c_5, Cert.ReferenceIdeal.ReadP.val_main_v47, Cert.ReferenceIdeal.ReadP.val_main_v46, Cert.ReferenceIdeal.ReadP.val_main_v45, Cert.ReferenceIdeal.ReadP.val_main_v42, Cert.ReferenceIdeal.ReadP.val_main_v41, Cert.ReferenceIdeal.ReadP.val_main_c_6, Cert.ReferenceIdeal.ReadP.val_main_v44, Cert.ReferenceIdeal.ReadP.val_main_v43, Cert.ReferenceIdeal.ReadP.val_main_c_7]
  simp only [cast_eq]
  rw [truncf_id]
  try rfl

end Cert.KernelIdeal.EntryT1

end
-- ==== Proof.KernelEntryT2.lean ====
/-
  The second Chebyshev propagation the kernel's region finds.

  It is twice the propagation of the first propagation, minus the hidden state, rounded to the matrix unit's format (the
  identity on the extended reals); the reference computes the same array by the same operations of the same arguments.
-/
import proofs.«121449_j80504866996302_1_alg».proof.Proof.Gen.KernelIdeal.Frame
import proofs.«121449_j80504866996302_1_alg».proof.Proof.RefRead
import Idealize.ShloMosaic.Lib.StableHlo.Run

noncomputable section

namespace Cert.KernelIdeal.EntryT2

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Rounding to a narrower float format is the identity on the extended reals. -/
theorem truncf_id {s : Shape} (x : FVec Ideal s .f32) (h : FTy.bf16.bits < FTy.f32.bits) :
    (truncf (F := Ideal) .bf16 x h : s.Idx → EReal) = x := rfl

set_option maxHeartbeats 4000000 in
/-- The second propagation of the hidden state, as the reference's term. -/
theorem entry_t2 (c : Dev nD) : (V m c main_v62 : S20000x256.Idx → EReal)
    = Cert.ReferenceIdeal.ReadP.val_main_v72 (F := Ideal) (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  after_results_simp
  simp only [Cert.ReferenceIdeal.ReadP.val_main_v72, Cert.ReferenceIdeal.ReadP.val_main_v71, Cert.ReferenceIdeal.ReadP.val_main_v70, Cert.ReferenceIdeal.ReadP.val_main_cst_12, Cert.ReferenceIdeal.ReadP.val_main_v69, Cert.ReferenceIdeal.ReadP.val_main_v67, Cert.ReferenceIdeal.ReadP.val_main_cst_11, Cert.ReferenceIdeal.ReadP.val_main_v68, Cert.ReferenceIdeal.ReadP.val_main_v3, Cert.ReferenceIdeal.ReadP.val_main_v2, Cert.ReferenceIdeal.ReadP.val_main_v66, Cert.ReferenceIdeal.ReadP.val_main_v65, Cert.ReferenceIdeal.ReadP.val_main_v57, Cert.ReferenceIdeal.ReadP.val_main_v29, Cert.ReferenceIdeal.ReadP.val_main_v21, Cert.ReferenceIdeal.ReadP.val_main_v20, Cert.ReferenceIdeal.ReadP.val_main_v19, Cert.ReferenceIdeal.ReadP.val_main_v12, Cert.ReferenceIdeal.ReadP.val_main_v8, Cert.ReferenceIdeal.ReadP.val_main_v6, Cert.ReferenceIdeal.ReadP.val_main_v4, Cert.ReferenceIdeal.ReadP.val_main_cst, Cert.ReferenceIdeal.ReadP.val_main_v5, Cert.ReferenceIdeal.ReadP.val_main_v1, Cert.ReferenceIdeal.ReadP.val_main_v0, Cert.ReferenceIdeal.ReadP.val_main_v7, Cert.ReferenceIdeal.ReadP.val_main_cst_0, Cert.ReferenceIdeal.ReadP.val_main_v11, Cert.ReferenceIdeal.ReadP.val_main_v10, Cert.ReferenceIdeal.ReadP.val_main_v9, Cert.ReferenceIdeal.ReadP.val_main_cst_1, Cert.ReferenceIdeal.ReadP.val_main_call0_v1, Cert.ReferenceIdeal.ReadP.val_main_call0_v0, Cert.ReferenceIdeal.ReadP.val_main_cst_2, Cert.ReferenceIdeal.ReadP.val_main_v18, Cert.ReferenceIdeal.ReadP.val_main_v17, Cert.ReferenceIdeal.ReadP.val_main_v14, Cert.ReferenceIdeal.ReadP.val_main_v13, Cert.ReferenceIdeal.ReadP.val_main_c, Cert.ReferenceIdeal.ReadP.val_main_v16, Cert.ReferenceIdeal.ReadP.val_main_v15, Cert.ReferenceIdeal.ReadP.val_main_c_3, Cert.ReferenceIdeal.ReadP.val_main_v28, Cert.ReferenceIdeal.ReadP.val_main_v27, Cert.ReferenceIdeal.ReadP.val_main_v26, Cert.ReferenceIdeal.ReadP.val_main_v23, Cert.ReferenceIdeal.ReadP.val_main_v22, Cert.ReferenceIdeal.ReadP.val_main_c_4, Cert.ReferenceIdeal.ReadP.val_main_v25, Cert.ReferenceIdeal.ReadP.val_main_v24, Cert.ReferenceIdeal.ReadP.val_main_c_5, Cert.ReferenceIdeal.ReadP.val_main_v64, Cert.ReferenceIdeal.ReadP.val_main_v52, Cert.ReferenceIdeal.ReadP.val_main_v50, Cert.ReferenceIdeal.ReadP.val_main_cst_8, Cert.ReferenceIdeal.ReadP.val_main_v51, Cert.ReferenceIdeal.ReadP.val_main_v49, Cert.ReferenceIdeal.ReadP.val_main_v48, Cert.ReferenceIdeal.ReadP.val_main_v40, Cert.ReferenceIdeal.ReadP.val_main_v47, Cert.ReferenceIdeal.ReadP.val_main_v46, Cert.ReferenceIdeal.ReadP.val_main_v45, Cert.ReferenceIdeal.ReadP.val_main_v42, Cert.ReferenceIdeal.ReadP.val_main_v41, Cert.ReferenceIdeal.ReadP.val_main_c_6, Cert.ReferenceIdeal.ReadP.val_main_v44, Cert.ReferenceIdeal.ReadP.val_main_v43, Cert.ReferenceIdeal.ReadP.val_main_c_7, Cert.ReferenceIdeal.ReadP.val_main_v63, Cert.ReferenceIdeal.ReadP.val_main_v62, Cert.ReferenceIdeal.ReadP.val_main_v59, Cert.ReferenceIdeal.ReadP.val_main_v58, Cert.ReferenceIdeal.ReadP.val_main_c_9, Cert.ReferenceIdeal.ReadP.val_main_v61, Cert.ReferenceIdeal.ReadP.val_main_v60, Cert.ReferenceIdeal.ReadP.val_main_c_10]
  simp only [cast_eq]
  rw [truncf_id]
  try rfl

end Cert.KernelIdeal.EntryT2

end
-- ==== Proof.LibBiasRows.lean ====
/-
  A bias vector laid along every row of a matrix, in its two spellings.

  A host program broadcasts the vector [n] to one row [1, n] (along axis 1) and that row down m rows. A kernel receives
  the vector already cast to one row [1, n], casts it to the same shape once more, and broadcasts it down m rows. Both
  read, at (r, q), the vector at q; so the two m × n arrays are equal.
-/
import Idealize.ShloMosaic.Lib.ValueLayout
import Idealize.ShloMosaic.Lib.KernelVsHost

namespace Idealize.ShloMosaic.BiasRows

open Idealize.ShloMosaic Idealize.ShloMosaic.ValueIdx

variable {α : Type}

/-- The host's spelling at (r, q): the vector at q. -/
theorem hostRows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

/-- The kernel's spelling at (r, q): the vector at q. -/
theorem kernelRows_apply {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩) (r : Fin m) (q : Fin n) :
    broadcastTo ⟨2, ![m, n]⟩ (shapeCast ⟨2, ![1, n]⟩ (shapeCast ⟨2, ![1, n]⟩ b h0) h1) hb (ix2 r q) = b (ix1 q) := by
  rw [broadcastTo_1b_ab_apply, shapeCast_self, shapeCast_a_1a_apply]

/-- The two spellings are one m × n array. -/
theorem kernelRows_eq_hostRows {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩)
    (g1 : (⟨1, ![n]⟩ : Shape).BroadcastsInDim ⟨2, ![1, n]⟩ ![1])
    (g2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h0) h1) hb
      = broadcastInDim ⟨2, ![m, n]⟩ ![0, 1] g2 (broadcastInDim ⟨2, ![1, n]⟩ ![1] g1 b) := by
  funext j
  obtain ⟨r, q, rfl⟩ : ∃ (r : Fin m) (q : Fin n), j = ix2 r q := ⟨j 0, j 1, eq_ix2 j⟩
  rw [kernelRows_apply, hostRows_apply]

end Idealize.ShloMosaic.BiasRows
-- ==== Proof.RefCell.lean ====
/-
  The reference program's values at an index.

  The reference computes the same cell over all 20000 nodes at once: each gate's four matrix products are whole-array
  products, the biases are broadcast down all rows, the logistic is spelt 1 / (1 + exp (-z)), and the Chebyshev
  propagations t1, t2 of the hidden state are recomputed for every gate. Here each stage of the reference is read at node
  r and column q: a whole-array product is the sum over the features of row r against a column of the weight, a broadcast
  bias is the weight stack at (gate, q), the recomputed propagations are the first gate's (the same operations of the same
  arguments), and the spelt-out logistic is the logistic. So the reference's three results are the cell of
  Proof/Cell.lean over the whole arrays, with t1 and t2 the reference's own propagation terms, which are never opened.
-/
import proofs.«121449_j80504866996302_1_alg».proof.Proof.RefRead
import proofs.«121449_j80504866996302_1_alg».proof.Proof.Cell
import proofs.«121449_j80504866996302_1_alg».proof.Proof.LibPlainDot
import proofs.«121449_j80504866996302_1_alg».proof.Proof.LibStackSlices
import proofs.«121449_j80504866996302_1_alg».proof.Proof.LibBiasRows
import Idealize.ShloMosaic.Lib.IdealHost

noncomputable section

open scoped BigOperators

namespace Cert.ReferenceIdeal.CellValue

open Cert.ReferenceIdeal Cert.ReferenceIdeal.ReadP Idealize.ShloMosaic Idealize.ShloMosaic.ValueIdx Cert.Cell
open Idealize.ShloMosaic.StackSlices

/-! ## General readings of the host's operations -/

theorem dotW_eq : dot_S20000x256_S256x256_S20000x256_1_0_0_1_n_n = DotDims.plain 20000 256 256 := rfl
theorem dotCls_eq : dot_S20000x256_S256x1_S20000x1_1_0_0_1_n_n = DotDims.plain 20000 256 1 := rfl

/-- All nodes' rows against a 256 × 256 matrix: at (r, q) the sum over the features. -/
theorem hostDot_apply (A : FVec Ideal S20000x256 .f32) (B : FVec Ideal S256x256 .f32) (r : Fin 20000) (q : Fin 256) :
    Host.dotGeneral dot_S20000x256_S256x256_S20000x256_1_0_0_1_n_n none A B (ix2 r q) = ∑ k : Fin 256, A (ix2 r k) * B (ix2 k q) := by
  simp only [Host.dotGeneral]
  rw [dotW_eq, PlainDot.dotGeneral_apply]

/-- All nodes' rows against the classifier column. -/
theorem hostDotCls_apply (A : FVec Ideal S20000x256 .f32) (B : FVec Ideal S256x1 .f32) (r : Fin 20000) (u : Fin 1) :
    Host.dotGeneral dot_S20000x256_S256x1_S20000x1_1_0_0_1_n_n none A B (ix2 r u) = ∑ k : Fin 256, A (ix2 r k) * B (ix2 k u) := by
  simp only [Host.dotGeneral]
  rw [dotCls_eq, PlainDot.dotGeneral_apply]

/-- Member o of a stack [n, m, a, b] of stacks, as a stack [m, a, b], at (j, k, q). -/
theorem slab4_apply {α : Type} {n m a b : Nat} (o : Nat) (ho : o < n) (W : (⟨4, ![n, m, a, b]⟩ : Shape).Idx → α)
    (hs : (⟨4, ![n, m, a, b]⟩ : Shape).Slices ![o, 0, 0, 0] ⟨4, ![1, m, a, b]⟩)
    (hc : (⟨4, ![1, m, a, b]⟩ : Shape).ShapeCasts ⟨3, ![m, a, b]⟩) (j : Fin m) (k : Fin a) (q : Fin b) :
    shapeCast ⟨3, ![m, a, b]⟩ (extractStridedSlice ⟨4, ![1, m, a, b]⟩ ![o, 0, 0, 0] W hs) hc (ix3 j k q)
      = W (ix4 (⟨o, ho⟩ : Fin n) j k q) := by
  refine (shapeCast_apply _ hc (ix3 j k q) (ix4 (0 : Fin 1) j k q) ?_).trans ?_
  · rw [Shape.rowMajor_val_four, Shape.rowMajor_val_three]
    show ((0 * m + j.val) * a + k.val) * b + q.val = (j.val * a + k.val) * b + q.val
    simp only [Nat.zero_mul, Nat.zero_add]
  · refine extractStridedSlice_apply _ W hs _ _ fun ax => ?_
    match ax with
    | ⟨0, _⟩ => rfl
    | ⟨1, _⟩ => show j.val = 0 + j.val; omega
    | ⟨2, _⟩ => show k.val = 0 + k.val; omega
    | ⟨3, _⟩ => show q.val = 0 + q.val; omega

/-- Row o of a stack [n, b] of rows, in the host's spelling (sliced, flattened, then broadcast to one row and down m rows),
    at (r, q). -/
theorem hostSliceRow_apply {α : Type} {n m b : Nat} (o : Nat) (ho : o < n) (v : (⟨2, ![n, b]⟩ : Shape).Idx → α)
    (hs : (⟨2, ![n, b]⟩ : Shape).Slices ![o, 0] ⟨2, ![1, b]⟩) (h1 : (⟨2, ![1, b]⟩ : Shape).ShapeCasts ⟨1, ![b]⟩)
    (g1 : (⟨1, ![b]⟩ : Shape).BroadcastsInDim ⟨2, ![1, b]⟩ ![1])
    (g2 : (⟨2, ![1, b]⟩ : Shape).BroadcastsInDim ⟨2, ![m, b]⟩ ![0, 1]) (r : Fin m) (q : Fin b) :
    broadcastInDim ⟨2, ![m, b]⟩ ![0, 1] g2
        (broadcastInDim ⟨2, ![1, b]⟩ ![1] g1 (shapeCast ⟨1, ![b]⟩ (extractStridedSlice ⟨2, ![1, b]⟩ ![o, 0] v hs) h1)) (ix2 r q)
      = v (ix2 (⟨o, ho⟩ : Fin n) q) := by
  rw [BiasRows.hostRows_apply, shapeCast_1a_a_apply]
  refine extractStridedSlice_apply _ v hs _ _ fun ax => ?_
  match ax with
  | ⟨0, _⟩ => rfl
  | ⟨1, _⟩ => show q.val = 0 + q.val; omega

/-- The scalar one broadcast over all nodes reads one. -/
theorem ones_apply (h : S_.BroadcastsInDim S20000x256 ![]) (i : S20000x256.Idx) :
    broadcastInDim S20000x256 ![] h (constant (F := Ideal) S_ .f32 0x3F800000#32) i = (1 : EReal) := by
  rw [broadcastInDim_scalar_apply]
  exact Ideal.ofBits_one_f32

/-- The scalar zero broadcast over all nodes reads the zero word. -/
theorem zeros_apply (h : S_.BroadcastsInDim S20000x256 ![]) (i : S20000x256.Idx) :
    broadcastInDim S20000x256 ![] h (constant (F := Ideal) S_ .f32 0x00000000#32) i = Ideal.ofBits .f32 0x00000000#32 := by
  rw [broadcastInDim_scalar_apply]
  rfl

/-- The spelt-out logistic is the logistic. -/
theorem logistic_spelt (z : EReal) :
    FloatOps.hostDivf (F := Ideal) (φ := .f32) (1 : EReal) (FloatOps.addf (F := Ideal) (φ := .f32) (1 : EReal)
      (FloatOps.hostUnary (F := Ideal) (φ := .f32) .exp (FloatOps.hostNegf (F := Ideal) (φ := .f32) z))) = Ideal.logistic z := rfl

variable (x0 : (⟨S20000x256, .f32⟩ : BufTy).Contents (Elt Ideal)) (x1 : (⟨S2x320000, .i32⟩ : BufTy).Contents (Elt Ideal))
  (x2 : (⟨S320000, .f32⟩ : BufTy).Contents (Elt Ideal)) (x3 x4 : (⟨S20000x256, .f32⟩ : BufTy).Contents (Elt Ideal))
  (x5 : (⟨S4x256x256, .f32⟩ : BufTy).Contents (Elt Ideal)) (x6 : (⟨S4x3x256x256, .f32⟩ : BufTy).Contents (Elt Ideal))
  (x7 x8 : (⟨S4x256, .f32⟩ : BufTy).Contents (Elt Ideal)) (x9 : (⟨S3x256, .f32⟩ : BufTy).Contents (Elt Ideal))
  (x10 : (⟨S256x1, .f32⟩ : BufTy).Contents (Elt Ideal)) (x11 : (⟨S1, .f32⟩ : BufTy).Contents (Elt Ideal))

/-- The weights as the reference's arguments. -/
abbrev P : Params := ⟨x5, x6, x7, x8, x9⟩

/-! ## The propagations recomputed for the later gates are the first gate's -/

theorem t1_120 : val_main_v120 (F := Ideal) x1 x2 x3 = val_main_v52 (F := Ideal) x1 x2 x3 := rfl
theorem t1_188 : val_main_v188 (F := Ideal) x1 x2 x3 = val_main_v52 (F := Ideal) x1 x2 x3 := rfl
theorem t1_248 : val_main_v248 (F := Ideal) x1 x2 x3 = val_main_v52 (F := Ideal) x1 x2 x3 := rfl
theorem t2_140 : val_main_v140 (F := Ideal) x1 x2 x3 = val_main_v72 (F := Ideal) x1 x2 x3 := rfl
theorem t2_208 : val_main_v208 (F := Ideal) x1 x2 x3 = val_main_v72 (F := Ideal) x1 x2 x3 := rfl
theorem t2_268 : val_main_v268 (F := Ideal) x1 x2 x3 = val_main_v72 (F := Ideal) x1 x2 x3 := rfl

/-! ## Gate 0 -/

theorem w0 (k q : Fin 256) : val_main_v31 (F := Ideal) x5 (ix2 k q) = x5 (ix3 (0 : Fin 4) k q) := by
  unfold val_main_v31 val_main_v30
  exact stack3_apply 0 (by decide) x5 _ _ k q

theorem slab0 (j : Fin 3) (k q : Fin 256) : val_main_v34 (F := Ideal) x6 (ix3 j k q) = x6 (ix4 (0 : Fin 4) j k q) := by
  unfold val_main_v34 val_main_v33
  exact slab4_apply 0 (by decide) x6 _ _ j k q

theorem th0_0 (k q : Fin 256) : val_main_v38 (F := Ideal) x6 (ix2 k q) = x6 (ix4 (0 : Fin 4) (0 : Fin 3) k q) := by
  unfold val_main_v38 val_main_v37
  refine (stack3_apply 0 (by decide) (val_main_v34 (F := Ideal) x6) _ _ k q).trans ?_
  exact slab0 x6 _ k q

theorem th0_1 (k q : Fin 256) : val_main_v54 (F := Ideal) x6 (ix2 k q) = x6 (ix4 (0 : Fin 4) (1 : Fin 3) k q) := by
  unfold val_main_v54 val_main_v53
  refine (stack3_apply 1 (by decide) (val_main_v34 (F := Ideal) x6) _ _ k q).trans ?_
  exact slab0 x6 _ k q

theorem th0_2 (k q : Fin 256) : val_main_v74 (F := Ideal) x6 (ix2 k q) = x6 (ix4 (0 : Fin 4) (2 : Fin 3) k q) := by
  unfold val_main_v74 val_main_v73
  refine (stack3_apply 2 (by decide) (val_main_v34 (F := Ideal) x6) _ _ k q).trans ?_
  exact slab0 x6 _ k q

theorem xw0 (r : Fin 20000) (q : Fin 256) :
    val_main_v32 (F := Ideal) x0 x5 (ix2 r q) = ∑ k : Fin 256, x0 (ix2 r k) * x5 (ix3 (0 : Fin 4) k q) := by
  unfold val_main_v32
  rw [hostDot_apply]
  exact Finset.sum_congr rfl fun k _ => by rw [w0]

theorem d0_0 (r : Fin 20000) (q : Fin 256) :
    val_main_v39 (F := Ideal) x3 x6 (ix2 r q) = ∑ k : Fin 256, x3 (ix2 r k) * x6 (ix4 (0 : Fin 4) (0 : Fin 3) k q) := by
  unfold val_main_v39
  rw [hostDot_apply]
  exact Finset.sum_congr rfl fun k _ => by rw [th0_0]

theorem d0_1 (r : Fin 20000) (q : Fin 256) :
    val_main_v55 (F := Ideal) x1 x2 x3 x6 (ix2 r q) = ∑ k : Fin 256, val_main_v52 (F := Ideal) x1 x2 x3 (ix2 r k) * x6 (ix4 (0 : Fin 4) (1 : Fin 3) k q) := by
  unfold val_main_v55
  rw [hostDot_apply]
  exact Finset.sum_congr rfl fun k _ => by rw [th0_1]

theorem d0_2 (r : Fin 20000) (q : Fin 256) :
    val_main_v75 (F := Ideal) x1 x2 x3 x6 (ix2 r q) = ∑ k : Fin 256, val_main_v72 (F := Ideal) x1 x2 x3 (ix2 r k) * x6 (ix4 (0 : Fin 4) (2 : Fin 3) k q) := by
  unfold val_main_v75
  rw [hostDot_apply]
  exact Finset.sum_congr rfl fun k _ => by rw [th0_2]

theorem bc0 (r : Fin 20000) (q : Fin 256) : val_main_v78 (F := Ideal) x7 (ix2 r q) = x7 (ix2 (0 : Fin 4) q) := by
  unfold val_main_v78 val_main_v77 val_main_v36 val_main_v35
  exact hostSliceRow_apply 0 (by decide) x7 _ _ _ _ r q

theorem b0 (r : Fin 20000) (q : Fin 256) : val_main_v90 (F := Ideal) x8 (ix2 r q) = x8 (ix2 (0 : Fin 4) q) := by
  unfold val_main_v90 val_main_v89 val_main_v88 val_main_v87
  exact hostSliceRow_apply 0 (by decide) x8 _ _ _ _ r q

theorem pre0 (r : Fin 20000) (q : Fin 256) :
    val_main_v80 (F := Ideal) x0 x1 x2 x3 x5 x6 x7 (ix2 r q) = pre (P x5 x6 x7 x8 x9) 0 (row x0 r) (row x3 r) (row (val_main_v52 (F := Ideal) x1 x2 x3) r) (row (val_main_v72 (F := Ideal) x1 x2 x3) r) q := by
  rw [val_main_v80_apply, val_main_v79_apply, val_main_v76_apply, val_main_v56_apply,
    xw0, d0_0, d0_1, d0_2, bc0]
  rfl

theorem wc0 (r : Fin 20000) (q : Fin 256) : val_main_v84 (F := Ideal) x9 (ix2 r q) = x9 (ix2 (0 : Fin 3) q) := by
  unfold val_main_v84 val_main_v83 val_main_v82 val_main_v81
  exact hostSliceRow_apply 0 (by decide) x9 _ _ _ _ r q

theorem one94 (i : S20000x256.Idx) : val_main_v94 (F := Ideal) i = (1 : EReal) := by
  unfold val_main_v94
  exact ones_apply _ i

theorem one96 (i : S20000x256.Idx) : val_main_v96 (F := Ideal) i = (1 : EReal) := by
  unfold val_main_v96
  exact ones_apply _ i

/-! ## Gate 1 -/

theorem w1 (k q : Fin 256) : val_main_v99 (F := Ideal) x5 (ix2 k q) = x5 (ix3 (1 : Fin 4) k q) := by
  unfold val_main_v99 val_main_v98
  exact stack3_apply 1 (by decide) x5 _ _ k q

theorem slab1 (j : Fin 3) (k q : Fin 256) : val_main_v102 (F := Ideal) x6 (ix3 j k q) = x6 (ix4 (1 : Fin 4) j k q) := by
  unfold val_main_v102 val_main_v101
  exact slab4_apply 1 (by decide) x6 _ _ j k q

theorem th1_0 (k q : Fin 256) : val_main_v106 (F := Ideal) x6 (ix2 k q) = x6 (ix4 (1 : Fin 4) (0 : Fin 3) k q) := by
  unfold val_main_v106 val_main_v105
  refine (stack3_apply 0 (by decide) (val_main_v102 (F := Ideal) x6) _ _ k q).trans ?_
  exact slab1 x6 _ k q

theorem th1_1 (k q : Fin 256) : val_main_v122 (F := Ideal) x6 (ix2 k q) = x6 (ix4 (1 : Fin 4) (1 : Fin 3) k q) := by
  unfold val_main_v122 val_main_v121
  refine (stack3_apply 1 (by decide) (val_main_v102 (F := Ideal) x6) _ _ k q).trans ?_
  exact slab1 x6 _ k q

theorem th1_2 (k q : Fin 256) : val_main_v142 (F := Ideal) x6 (ix2 k q) = x6 (ix4 (1 : Fin 4) (2 : Fin 3) k q) := by
  unfold val_main_v142 val_main_v141
  refine (stack3_apply 2 (by decide) (val_main_v102 (F := Ideal) x6) _ _ k q).trans ?_
  exact slab1 x6 _ k q

theorem xw1 (r : Fin 20000) (q : Fin 256) :
    val_main_v100 (F := Ideal) x0 x5 (ix2 r q) = ∑ k : Fin 256, x0 (ix2 r k) * x5 (ix3 (1 : Fin 4) k q) := by
  unfold val_main_v100
  rw [hostDot_apply]
  exact Finset.sum_congr rfl fun k _ => by rw [w1]

theorem d1_0 (r : Fin 20000) (q : Fin 256) :
    val_main_v107 (F := Ideal) x3 x6 (ix2 r q) = ∑ k : Fin 256, x3 (ix2 r k) * x6 (ix4 (1 : Fin 4) (0 : Fin 3) k q) := by
  unfold val_main_v107
  rw [hostDot_apply]
  exact Finset.sum_congr rfl fun k _ => by rw [th1_0]

theorem d1_1 (r : Fin 20000) (q : Fin 256) :
    val_main_v123 (F := Ideal) x1 x2 x3 x6 (ix2 r q) = ∑ k : Fin 256, val_main_v52 (F := Ideal) x1 x2 x3 (ix2 r k) * x6 (ix4 (1 : Fin 4) (1 : Fin 3) k q) := by
  unfold val_main_v123
  rw [hostDot_apply]
  exact Finset.sum_congr rfl fun k _ => by rw [th1_1]; rw [t1_120]

theorem d1_2 (r : Fin 20000) (q : Fin 256) :
    val_main_v143 (F := Ideal) x1 x2 x3 x6 (ix2 r q) = ∑ k : Fin 256, val_main_v72 (F := Ideal) x1 x2 x3 (ix2 r k) * x6 (ix4 (1 : Fin 4) (2 : Fin 3) k q) := by
  unfold val_main_v143
  rw [hostDot_apply]
  exact Finset.sum_congr rfl fun k _ => by rw [th1_2]; rw [t2_140]

theorem bc1 (r : Fin 20000) (q : Fin 256) : val_main_v146 (F := Ideal) x7 (ix2 r q) = x7 (ix2 (1 : Fin 4) q) := by
  unfold val_main_v146 val_main_v145 val_main_v104 val_main_v103
  exact hostSliceRow_apply 1 (by decide) x7 _ _ _ _ r q

theorem b1 (r : Fin 20000) (q : Fin 256) : val_main_v158 (F := Ideal) x8 (ix2 r q) = x8 (ix2 (1 : Fin 4) q) := by
  unfold val_main_v158 val_main_v157 val_main_v156 val_main_v155
  exact hostSliceRow_apply 1 (by decide) x8 _ _ _ _ r q

theorem pre1 (r : Fin 20000) (q : Fin 256) :
    val_main_v148 (F := Ideal) x0 x1 x2 x3 x5 x6 x7 (ix2 r q) = pre (P x5 x6 x7 x8 x9) 1 (row x0 r) (row x3 r) (row (val_main_v52 (F := Ideal) x1 x2 x3) r) (row (val_main_v72 (F := Ideal) x1 x2 x3) r) q := by
  rw [val_main_v148_apply, val_main_v147_apply, val_main_v144_apply, val_main_v124_apply,
    xw1, d1_0, d1_1, d1_2, bc1]
  rfl

theorem wc1 (r : Fin 20000) (q : Fin 256) : val_main_v152 (F := Ideal) x9 (ix2 r q) = x9 (ix2 (1 : Fin 3) q) := by
  unfold val_main_v152 val_main_v151 val_main_v150 val_main_v149
  exact hostSliceRow_apply 1 (by decide) x9 _ _ _ _ r q

theorem one162 (i : S20000x256.Idx) : val_main_v162 (F := Ideal) i = (1 : EReal) := by
  unfold val_main_v162
  exact ones_apply _ i

theorem one164 (i : S20000x256.Idx) : val_main_v164 (F := Ideal) i = (1 : EReal) := by
  unfold val_main_v164
  exact ones_apply _ i

/-! ## Gate 2 -/

theorem w2 (k q : Fin 256) : val_main_v167 (F := Ideal) x5 (ix2 k q) = x5 (ix3 (2 : Fin 4) k q) := by
  unfold val_main_v167 val_main_v166
  exact stack3_apply 2 (by decide) x5 _ _ k q

theorem slab2 (j : Fin 3) (k q : Fin 256) : val_main_v170 (F := Ideal) x6 (ix3 j k q) = x6 (ix4 (2 : Fin 4) j k q) := by
  unfold val_main_v170 val_main_v169
  exact slab4_apply 2 (by decide) x6 _ _ j k q

theorem th2_0 (k q : Fin 256) : val_main_v174 (F := Ideal) x6 (ix2 k q) = x6 (ix4 (2 : Fin 4) (0 : Fin 3) k q) := by
  unfold val_main_v174 val_main_v173
  refine (stack3_apply 0 (by decide) (val_main_v170 (F := Ideal) x6) _ _ k q).trans ?_
  exact slab2 x6 _ k q

theorem th2_1 (k q : Fin 256) : val_main_v190 (F := Ideal) x6 (ix2 k q) = x6 (ix4 (2 : Fin 4) (1 : Fin 3) k q) := by
  unfold val_main_v190 val_main_v189
  refine (stack3_apply 1 (by decide) (val_main_v170 (F := Ideal) x6) _ _ k q).trans ?_
  exact slab2 x6 _ k q

theorem th2_2 (k q : Fin 256) : val_main_v210 (F := Ideal) x6 (ix2 k q) = x6 (ix4 (2 : Fin 4) (2 : Fin 3) k q) := by
  unfold val_main_v210 val_main_v209
  refine (stack3_apply 2 (by decide) (val_main_v170 (F := Ideal) x6) _ _ k q).trans ?_
  exact slab2 x6 _ k q

theorem xw2 (r : Fin 20000) (q : Fin 256) :
    val_main_v168 (F := Ideal) x0 x5 (ix2 r q) = ∑ k : Fin 256, x0 (ix2 r k) * x5 (ix3 (2 : Fin 4) k q) := by
  unfold val_main_v168
  rw [hostDot_apply]
  exact Finset.sum_congr rfl fun k _ => by rw [w2]

theorem d2_0 (r : Fin 20000) (q : Fin 256) :
    val_main_v175 (F := Ideal) x3 x6 (ix2 r q) = ∑ k : Fin 256, x3 (ix2 r k) * x6 (ix4 (2 : Fin 4) (0 : Fin 3) k q) := by
  unfold val_main_v175
  rw [hostDot_apply]
  exact Finset.sum_congr rfl fun k _ => by rw [th2_0]

theorem d2_1 (r : Fin 20000) (q : Fin 256) :
    val_main_v191 (F := Ideal) x1 x2 x3 x6 (ix2 r q) = ∑ k : Fin 256, val_main_v52 (F := Ideal) x1 x2 x3 (ix2 r k) * x6 (ix4 (2 : Fin 4) (1 : Fin 3) k q) := by
  unfold val_main_v191
  rw [hostDot_apply]
  exact Finset.sum_congr rfl fun k _ => by rw [th2_1]; rw [t1_188]

theorem d2_2 (r : Fin 20000) (q : Fin 256) :
    val_main_v211 (F := Ideal) x1 x2 x3 x6 (ix2 r q) = ∑ k : Fin 256, val_main_v72 (F := Ideal) x1 x2 x3 (ix2 r k) * x6 (ix4 (2 : Fin 4) (2 : Fin 3) k q) := by
  unfold val_main_v211
  rw [hostDot_apply]
  exact Finset.sum_congr rfl fun k _ => by rw [th2_2]; rw [t2_208]

theorem bc2 (r : Fin 20000) (q : Fin 256) : val_main_v214 (F := Ideal) x7 (ix2 r q) = x7 (ix2 (2 : Fin 4) q) := by
  unfold val_main_v214 val_main_v213 val_main_v172 val_main_v171
  exact hostSliceRow_apply 2 (by decide) x7 _ _ _ _ r q

theorem b2 (r : Fin 20000) (q : Fin 256) : val_main_v220 (F := Ideal) x8 (ix2 r q) = x8 (ix2 (2 : Fin 4) q) := by
  unfold val_main_v220 val_main_v219 val_main_v218 val_main_v217
  exact hostSliceRow_apply 2 (by decide) x8 _ _ _ _ r q

theorem pre2 (r : Fin 20000) (q : Fin 256) :
    val_main_v216 (F := Ideal) x0 x1 x2 x3 x5 x6 x7 (ix2 r q) = pre (P x5 x6 x7 x8 x9) 2 (row x0 r) (row x3 r) (row (val_main_v52 (F := Ideal) x1 x2 x3) r) (row (val_main_v72 (F := Ideal) x1 x2 x3) r) q := by
  rw [val_main_v216_apply, val_main_v215_apply, val_main_v212_apply, val_main_v192_apply,
    xw2, d2_0, d2_1, d2_2, bc2]
  rfl

/-! ## Gate 3 -/

theorem w3 (k q : Fin 256) : val_main_v227 (F := Ideal) x5 (ix2 k q) = x5 (ix3 (3 : Fin 4) k q) := by
  unfold val_main_v227 val_main_v226
  exact stack3_apply 3 (by decide) x5 _ _ k q

theorem slab3 (j : Fin 3) (k q : Fin 256) : val_main_v230 (F := Ideal) x6 (ix3 j k q) = x6 (ix4 (3 : Fin 4) j k q) := by
  unfold val_main_v230 val_main_v229
  exact slab4_apply 3 (by decide) x6 _ _ j k q

theorem th3_0 (k q : Fin 256) : val_main_v234 (F := Ideal) x6 (ix2 k q) = x6 (ix4 (3 : Fin 4) (0 : Fin 3) k q) := by
  unfold val_main_v234 val_main_v233
  refine (stack3_apply 0 (by decide) (val_main_v230 (F := Ideal) x6) _ _ k q).trans ?_
  exact slab3 x6 _ k q

theorem th3_1 (k q : Fin 256) : val_main_v250 (F := Ideal) x6 (ix2 k q) = x6 (ix4 (3 : Fin 4) (1 : Fin 3) k q) := by
  unfold val_main_v250 val_main_v249
  refine (stack3_apply 1 (by decide) (val_main_v230 (F := Ideal) x6) _ _ k q).trans ?_
  exact slab3 x6 _ k q

theorem th3_2 (k q : Fin 256) : val_main_v270 (F := Ideal) x6 (ix2 k q) = x6 (ix4 (3 : Fin 4) (2 : Fin 3) k q) := by
  unfold val_main_v270 val_main_v269
  refine (stack3_apply 2 (by decide) (val_main_v230 (F := Ideal) x6) _ _ k q).trans ?_
  exact slab3 x6 _ k q

theorem xw3 (r : Fin 20000) (q : Fin 256) :
    val_main_v228 (F := Ideal) x0 x5 (ix2 r q) = ∑ k : Fin 256, x0 (ix2 r k) * x5 (ix3 (3 : Fin 4) k q) := by
  unfold val_main_v228
  rw [hostDot_apply]
  exact Finset.sum_congr rfl fun k _ => by rw [w3]

theorem d3_0 (r : Fin 20000) (q : Fin 256) :
    val_main_v235 (F := Ideal) x3 x6 (ix2 r q) = ∑ k : Fin 256, x3 (ix2 r k) * x6 (ix4 (3 : Fin 4) (0 : Fin 3) k q) := by
  unfold val_main_v235
  rw [hostDot_apply]
  exact Finset.sum_congr rfl fun k _ => by rw [th3_0]

theorem d3_1 (r : Fin 20000) (q : Fin 256) :
    val_main_v251 (F := Ideal) x1 x2 x3 x6 (ix2 r q) = ∑ k : Fin 256, val_main_v52 (F := Ideal) x1 x2 x3 (ix2 r k) * x6 (ix4 (3 : Fin 4) (1 : Fin 3) k q) := by
  unfold val_main_v251
  rw [hostDot_apply]
  exact Finset.sum_congr rfl fun k _ => by rw [th3_1]; rw [t1_248]

theorem d3_2 (r : Fin 20000) (q : Fin 256) :
    val_main_v271 (F := Ideal) x1 x2 x3 x6 (ix2 r q) = ∑ k : Fin 256, val_main_v72 (F := Ideal) x1 x2 x3 (ix2 r k) * x6 (ix4 (3 : Fin 4) (2 : Fin 3) k q) := by
  unfold val_main_v271
  rw [hostDot_apply]
  exact Finset.sum_congr rfl fun k _ => by rw [th3_2]; rw [t2_268]

theorem bc3 (r : Fin 20000) (q : Fin 256) : val_main_v274 (F := Ideal) x7 (ix2 r q) = x7 (ix2 (3 : Fin 4) q) := by
  unfold val_main_v274 val_main_v273 val_main_v232 val_main_v231
  exact hostSliceRow_apply 3 (by decide) x7 _ _ _ _ r q

theorem b3 (r : Fin 20000) (q : Fin 256) : val_main_v286 (F := Ideal) x8 (ix2 r q) = x8 (ix2 (3 : Fin 4) q) := by
  unfold val_main_v286 val_main_v285 val_main_v284 val_main_v283
  exact hostSliceRow_apply 3 (by decide) x8 _ _ _ _ r q

theorem pre3 (r : Fin 20000) (q : Fin 256) :
    val_main_v276 (F := Ideal) x0 x1 x2 x3 x5 x6 x7 (ix2 r q) = pre (P x5 x6 x7 x8 x9) 3 (row x0 r) (row x3 r) (row (val_main_v52 (F := Ideal) x1 x2 x3) r) (row (val_main_v72 (F := Ideal) x1 x2 x3) r) q := by
  rw [val_main_v276_apply, val_main_v275_apply, val_main_v272_apply, val_main_v252_apply,
    xw3, d3_0, d3_1, d3_2, bc3]
  rfl

theorem wc3 (r : Fin 20000) (q : Fin 256) : val_main_v280 (F := Ideal) x9 (ix2 r q) = x9 (ix2 (2 : Fin 3) q) := by
  unfold val_main_v280 val_main_v279 val_main_v278 val_main_v277
  exact hostSliceRow_apply 2 (by decide) x9 _ _ _ _ r q

theorem one290 (i : S20000x256.Idx) : val_main_v290 (F := Ideal) i = (1 : EReal) := by
  unfold val_main_v290
  exact ones_apply _ i

theorem one292 (i : S20000x256.Idx) : val_main_v292 (F := Ideal) i = (1 : EReal) := by
  unfold val_main_v292
  exact ones_apply _ i

/-! ## The gates, the new cell state, the new hidden state and the score -/

theorem gate0 (r : Fin 20000) (q : Fin 256) :
    val_main_v97 (F := Ideal) x0 x1 x2 x3 x4 x5 x6 x7 x8 x9 (ix2 r q) = gateIn (P x5 x6 x7 x8 x9) (row x0 r) (row x3 r) (row (val_main_v52 (F := Ideal) x1 x2 x3) r) (row (val_main_v72 (F := Ideal) x1 x2 x3) r) (x4 (ix2 r q)) q := by
  rw [val_main_v97_apply, val_main_v95_apply, val_main_v93_apply, val_main_v92_apply, val_main_v91_apply, val_main_v86_apply,
    val_main_v85_apply, pre0, wc0, b0, one94, one96]
  rfl

theorem gate1 (r : Fin 20000) (q : Fin 256) :
    val_main_v165 (F := Ideal) x0 x1 x2 x3 x4 x5 x6 x7 x8 x9 (ix2 r q) = gateForget (P x5 x6 x7 x8 x9) (row x0 r) (row x3 r) (row (val_main_v52 (F := Ideal) x1 x2 x3) r) (row (val_main_v72 (F := Ideal) x1 x2 x3) r) (x4 (ix2 r q)) q := by
  rw [val_main_v165_apply, val_main_v163_apply, val_main_v161_apply, val_main_v160_apply, val_main_v159_apply, val_main_v154_apply,
    val_main_v153_apply, pre1, wc1, b1, one162, one164]
  rfl

theorem cand2 (r : Fin 20000) (q : Fin 256) :
    val_main_v222 (F := Ideal) x0 x1 x2 x3 x5 x6 x7 x8 (ix2 r q) = cand (P x5 x6 x7 x8 x9) (row x0 r) (row x3 r) (row (val_main_v52 (F := Ideal) x1 x2 x3) r) (row (val_main_v72 (F := Ideal) x1 x2 x3) r) q := by
  rw [val_main_v222_apply, val_main_v221_apply, pre2, b2]
  rfl

theorem cnew (r : Fin 20000) (q : Fin 256) :
    val_main_v225 (F := Ideal) x0 x1 x2 x3 x4 x5 x6 x7 x8 x9 (ix2 r q) = cNew (P x5 x6 x7 x8 x9) (row x0 r) (row x3 r) (row (val_main_v52 (F := Ideal) x1 x2 x3) r) (row (val_main_v72 (F := Ideal) x1 x2 x3) r) (x4 (ix2 r q)) q := by
  rw [val_main_v225_apply, val_main_v223_apply, val_main_v224_apply, gate1, gate0, cand2]
  rfl

theorem gate3 (r : Fin 20000) (q : Fin 256) :
    val_main_v293 (F := Ideal) x0 x1 x2 x3 x4 x5 x6 x7 x8 x9 (ix2 r q) = gateOut (P x5 x6 x7 x8 x9) (row x0 r) (row x3 r) (row (val_main_v52 (F := Ideal) x1 x2 x3) r) (row (val_main_v72 (F := Ideal) x1 x2 x3) r) (x4 (ix2 r q)) q := by
  rw [val_main_v293_apply, val_main_v291_apply, val_main_v289_apply, val_main_v288_apply, val_main_v287_apply, val_main_v282_apply,
    val_main_v281_apply, pre3, wc3, b3, cnew, one290, one292]
  rfl

theorem hnew (r : Fin 20000) (q : Fin 256) :
    val_main_v295 (F := Ideal) x0 x1 x2 x3 x4 x5 x6 x7 x8 x9 (ix2 r q) = hNew (P x5 x6 x7 x8 x9) (row x0 r) (row x3 r) (row (val_main_v52 (F := Ideal) x1 x2 x3) r) (row (val_main_v72 (F := Ideal) x1 x2 x3) r) (x4 (ix2 r q)) q := by
  rw [val_main_v295_apply, val_main_v294_apply, gate3, cnew]
  rfl

theorem relu_apply (r : Fin 20000) (k : Fin 256) :
    val_main_v296 (F := Ideal) x0 x1 x2 x3 x4 x5 x6 x7 x8 x9 (ix2 r k) = max (hNew (P x5 x6 x7 x8 x9) (row x0 r) (row x3 r) (row (val_main_v52 (F := Ideal) x1 x2 x3) r) (row (val_main_v72 (F := Ideal) x1 x2 x3) r) (x4 (ix2 r k)) k) (Ideal.ofBits .f32 0x00000000#32) := by
  rw [val_main_v296_apply, hnew]
  unfold val_main_call1_v0 val_main_call1_cst
  rw [zeros_apply]
  rfl

theorem bcls_apply (r : Fin 20000) (u : Fin 1) : val_main_v299 (F := Ideal) x11 (ix2 r u) = x11 (ix1 (0 : Fin 1)) := by
  unfold val_main_v299 val_main_v298
  rw [BiasRows.hostRows_apply]
  have hu : u = 0 := Fin.ext (by omega)
  rw [hu]

theorem out_apply (r : Fin 20000) (u : Fin 1) :
    val_main_v300 (F := Ideal) x0 x1 x2 x3 x4 x5 x6 x7 x8 x9 x10 x11 (ix2 r u)
      = score (P x5 x6 x7 x8 x9) (row x0 r) (row x3 r) (row (val_main_v52 (F := Ideal) x1 x2 x3) r) (row (val_main_v72 (F := Ideal) x1 x2 x3) r) (row x4 r) x10 (x11 (ix1 (0 : Fin 1))) := by
  rw [val_main_v300_apply, bcls_apply]
  unfold val_main_v297
  rw [hostDotCls_apply]
  have hu : u = 0 := Fin.ext (by omega)
  subst hu
  refine congrArg (· + _) (Finset.sum_congr rfl fun k _ => ?_)
  rw [relu_apply]
  rfl

/-! ## The reference's three results as whole arrays -/

theorem ref_h : val_main_v295 (F := Ideal) x0 x1 x2 x3 x4 x5 x6 x7 x8 x9 = H (P x5 x6 x7 x8 x9) x0 x3 (val_main_v52 (F := Ideal) x1 x2 x3) (val_main_v72 (F := Ideal) x1 x2 x3) x4 := by
  funext i
  obtain ⟨r, q, rfl⟩ : ∃ (r : Fin 20000) (q : Fin 256), i = ix2 r q := ⟨i 0, i 1, eq_ix2 i⟩
  rw [hnew, H_apply]

theorem ref_c : val_main_v225 (F := Ideal) x0 x1 x2 x3 x4 x5 x6 x7 x8 x9 = Cn (P x5 x6 x7 x8 x9) x0 x3 (val_main_v52 (F := Ideal) x1 x2 x3) (val_main_v72 (F := Ideal) x1 x2 x3) x4 := by
  funext i
  obtain ⟨r, q, rfl⟩ : ∃ (r : Fin 20000) (q : Fin 256), i = ix2 r q := ⟨i 0, i 1, eq_ix2 i⟩
  rw [cnew, Cn_apply]

theorem ref_out : val_main_v300 (F := Ideal) x0 x1 x2 x3 x4 x5 x6 x7 x8 x9 x10 x11
    = Out (P x5 x6 x7 x8 x9) x0 x3 (val_main_v52 (F := Ideal) x1 x2 x3) (val_main_v72 (F := Ideal) x1 x2 x3) x4 x10 (x11 (ix1 (0 : Fin 1))) := by
  funext i
  obtain ⟨r, u, rfl⟩ : ∃ (r : Fin 20000) (u : Fin 1), i = ix2 r u := ⟨i 0, i 1, eq_ix2 i⟩
  rw [out_apply, Out_apply]

end Cert.ReferenceIdeal.CellValue

end
-- ==== Proof.lean ====
/-
  A graph-convolutional LSTM step on 20000 nodes with 256 features, as a blocked kernel and as a whole-array reference,
  agree on the extended reals.

  Both programs first compute, on the host, the symmetric graph normalisation and the two Chebyshev propagations
  t1 = L̂ h and t2 = 2 L̂ t1 − h of the hidden state h over the 320000 edges (a gather along the edges' sources, a scaling
  by the edge weights, and a scatter-add to the edges' targets). The kernel then walks the nodes in 25 blocks of 800 rows;
  for each block it forms the four gates' pre-activations x·W[g] + (((h·θ[g,0] + t1·θ[g,1]) + t2·θ[g,2]) + bc[g]), the
  input, forget and output gates (logistic, with peephole terms wc·c and wc·c'), the candidate (tanh), the new cell state
  c' = f·c + i·t, the new hidden state h' = o·tanh c', and the score relu(h')·wcls + bcls. The reference does the same
  with whole-array matrix products, recomputing t1 and t2 for every gate and spelling the logistic 1 / (1 + exp (−z)).

  The proof: (Proof/Cell.lean) the cell as a function of ONE node's rows, every sum and product in the order both
  programs use, so that no algebraic law (and hence no finiteness) is needed; (Proof/KernelCell.lean) the kernel body's
  stored values at a row and column of a block are that cell of the block's rows; (Proof/KernelBlocks.lean) a block's rows
  are rows 800·t … of the arrays the region finds, and the 25 blocks cover all nodes, so the kernel's three results are
  the cell over the whole arrays; (Proof/KernelEntry.lean, KernelEntryT1.lean, KernelEntryT2.lean) the region finds the arguments themselves (rounding to the
  matrix unit's format is the identity here) and, as t1 and t2, exactly the reference's own terms for them;
  (Proof/RefCell.lean) the reference's three results are the same cell over the whole arrays. The frames of the two
  kernel programs are the generated ones; the reference's frame is its run with the results dropped.
-/
import proofs.«121449_j80504866996302_1_alg».proof.Defs
import proofs.«121449_j80504866996302_1_alg».proof.Proof.Gen.Kernel
import proofs.«121449_j80504866996302_1_alg».proof.Proof.Gen.Kernel.Skeleton
import proofs.«121449_j80504866996302_1_alg».proof.Proof.Gen.Kernel.Launch
import proofs.«121449_j80504866996302_1_alg».proof.Proof.Gen.Kernel.Points
import proofs.«121449_j80504866996302_1_alg».proof.Proof.Gen.Kernel.Frame
import proofs.«121449_j80504866996302_1_alg».proof.Proof.Gen.KernelIdeal
import proofs.«121449_j80504866996302_1_alg».proof.Proof.Gen.KernelIdeal.Skeleton
import proofs.«121449_j80504866996302_1_alg».proof.Proof.Gen.KernelIdeal.Launch
import proofs.«121449_j80504866996302_1_alg».proof.Proof.Gen.KernelIdeal.Points
import proofs.«121449_j80504866996302_1_alg».proof.Proof.Gen.KernelIdeal.Frame
import proofs.«121449_j80504866996302_1_alg».proof.Proof.Gen.KernelIdeal.Value
import proofs.«121449_j80504866996302_1_alg».proof.Proof.Gen.ReferenceIdeal
import proofs.«121449_j80504866996302_1_alg».proof.Proof.Gen.Pre_finite_inputs
import proofs.«121449_j80504866996302_1_alg».proof.Proof.RefRun
import proofs.«121449_j80504866996302_1_alg».proof.Proof.RefRead
import proofs.«121449_j80504866996302_1_alg».proof.Proof.KernelBlocks
import proofs.«121449_j80504866996302_1_alg».proof.Proof.KernelEntry
import proofs.«121449_j80504866996302_1_alg».proof.Proof.KernelEntryT1
import proofs.«121449_j80504866996302_1_alg».proof.Proof.KernelEntryT2
import proofs.«121449_j80504866996302_1_alg».proof.Proof.RefCell
import Idealize.ShloMosaic.Adequacy
import Idealize.ShloMosaic.Init

noncomputable section

namespace Cert.Proof

open Idealize.ShloMosaic Idealize.SL.Sem Idealize.ShloMosaic.ValueIdx

set_option maxHeartbeats 4000000 in
/-- The two programs' results agree: the kernel's run ends with the cell over the arrays its region finds, the
    reference's with the cell over its arguments; the region finds the (agreeing) arguments and the reference's own
    propagation terms. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) (hPre_finite_inputs := hPre) := by
  intro m ρ m' ρ' _ hagree
  refine ⟨fun c => Cert.KernelIdeal.Blocks.OK m c, fun c => Cert.KernelIdeal.Blocks.HK m c,
    fun c => Cert.KernelIdeal.Blocks.CK m c, Cert.KernelIdeal.Blocks.run m ρ, ?_⟩
  refine (θ_run Cert.ReferenceIdeal.defs _ _).mono
    (fun r h c => ⟨(h c).1.trans ?_, (h c).2.1.trans ?_, (h c).2.2.1.trans ?_, (h c).2.2.2⟩)
    (Cert.ReferenceIdeal.RunP.run (F := Ideal) m' ρ')
  · try dsimp only
    obtain ⟨a0, a1, a2, a3, a4, a5, a6, a7, a8, a9, a10, a11⟩ := hagree c
    rw [Cert.ReferenceIdeal.ReadP.val_main_v300_eq, Cert.ReferenceIdeal.CellValue.ref_out, a0, a1, a2, a3, a4, a5, a6, a7, a8, a9, a10, a11]
    unfold Cert.KernelIdeal.Blocks.OK Cert.KernelIdeal.Blocks.PK
    rw [Cert.KernelIdeal.Entry.entry_x, Cert.KernelIdeal.Entry.entry_h, Cert.KernelIdeal.EntryT1.entry_t1,
      Cert.KernelIdeal.EntryT2.entry_t2, Cert.KernelIdeal.Entry.entry_W, Cert.KernelIdeal.Entry.entry_θ,
      Cert.KernelIdeal.Entry.entry_wcls, Cert.KernelIdeal.Entry.entry_bcls, Cert.KernelIdeal.Gen.V_main_arg4,
      Cert.KernelIdeal.Gen.V_main_arg7, Cert.KernelIdeal.Gen.V_main_arg8, Cert.KernelIdeal.Gen.V_main_arg9]
    try rfl
  · try dsimp only
    obtain ⟨a0, a1, a2, a3, a4, a5, a6, a7, a8, a9, a10, a11⟩ := hagree c
    rw [Cert.ReferenceIdeal.ReadP.val_main_v295_eq, Cert.ReferenceIdeal.CellValue.ref_h, a0, a1, a2, a3, a4, a5, a6, a7, a8, a9]
    unfold Cert.KernelIdeal.Blocks.HK Cert.KernelIdeal.Blocks.PK
    rw [Cert.KernelIdeal.Entry.entry_x, Cert.KernelIdeal.Entry.entry_h, Cert.KernelIdeal.EntryT1.entry_t1,
      Cert.KernelIdeal.EntryT2.entry_t2, Cert.KernelIdeal.Entry.entry_W, Cert.KernelIdeal.Entry.entry_θ,
      Cert.KernelIdeal.Gen.V_main_arg4,
      Cert.KernelIdeal.Gen.V_main_arg7, Cert.KernelIdeal.Gen.V_main_arg8, Cert.KernelIdeal.Gen.V_main_arg9]
    try rfl
  · try dsimp only
    obtain ⟨a0, a1, a2, a3, a4, a5, a6, a7, a8, a9, a10, a11⟩ := hagree c
    rw [Cert.ReferenceIdeal.ReadP.val_main_v225_eq, Cert.ReferenceIdeal.CellValue.ref_c, a0, a1, a2, a3, a4, a5, a6, a7, a8, a9]
    unfold Cert.KernelIdeal.Blocks.CK Cert.KernelIdeal.Blocks.PK
    rw [Cert.KernelIdeal.Entry.entry_x, Cert.KernelIdeal.Entry.entry_h, Cert.KernelIdeal.EntryT1.entry_t1,
      Cert.KernelIdeal.EntryT2.entry_t2, Cert.KernelIdeal.Entry.entry_W, Cert.KernelIdeal.Entry.entry_θ,
      Cert.KernelIdeal.Gen.V_main_arg4,
      Cert.KernelIdeal.Gen.V_main_arg7, Cert.KernelIdeal.Gen.V_main_arg8, Cert.KernelIdeal.Gen.V_main_arg9]
    try rfl

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2.2.2)
      (Cert.ReferenceIdeal.RunP.run (F := Ideal) m ρ),
    trivial,
    algebraic⟩

end Cert.Proof

end
